-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  IdealRules.truncf_extf.Statement Cert.KernelIdeal.S1024x784 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1x28x28 : Shape := ⟨4, ![16384, 1, 28, 28]⟩
abbrev S2048x784 : Shape := ⟨2, ![2048, 784]⟩
abbrev S2048 : Shape := ⟨1, ![2048]⟩
abbrev S2048x2048 : Shape := ⟨2, ![2048, 2048]⟩
abbrev S10x2048 : Shape := ⟨2, ![10, 2048]⟩
abbrev S10 : Shape := ⟨1, ![10]⟩
abbrev S_ : Shape := ⟨0, ![]⟩

class Facts : Prop where
  bcast_S_S16384x1x28x28 : S_.BroadcastsInDim S16384x1x28x28 (![] : Fin 0 → Fin S16384x1x28x28.rank)
  reducesTo_S16384x1x28x28_S_d0_1_2_3 : S16384x1x28x28.ReducesTo [0, 1, 2, 3] S_
  h_S_ : 0 < S_.numel
  bcast_S_S2048x784 : S_.BroadcastsInDim S2048x784 (![] : Fin 0 → Fin S2048x784.rank)
  reducesTo_S2048x784_S_d0_1 : S2048x784.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S10x2048 : S_.BroadcastsInDim S10x2048 (![] : Fin 0 → Fin S10x2048.rank)
  reducesTo_S10x2048_S_d0_1 : S10x2048.ReducesTo [0, 1] S_
  bcast_S_S10 : S_.BroadcastsInDim S10 (![] : Fin 0 → Fin S10.rank)
  reducesTo_S10_S_d0 : S10.ReducesTo [0] S_
  reducesTo_S_S_d : S_.ReducesTo [] S_

variable [Facts]

def fn_part4 {F : FTy → Type} [FloatOps F] (main_arg14 : FVec F S10 .f32) (main_arg15 : FVec F S_ .f32) (main_v63 : IVec S_ 1) (main_v67 : IVec S_ 1) : IVec S_ 1 :=
  let main_v68 : IVec S_ 1 := andi main_v63 main_v67
  let main_v69 : FVec F S10 .f32 := Host.absf main_arg14
  let main_cst_26 : FVec F S_ .f32 := constant S_ .f32 0x7F800000#32
  let main_v70 : FVec F S10 .f32 := broadcastInDim S10 ![] bcast_S_S10 main_cst_26
  let main_v71 : IVec S10 1 := cmpf .olt main_v69 main_v70
  let main_c_27 : IVec S_ 1 := constantI S_ 1 1#1
  let main_v72 : IVec S_ 1 := (fun x v => Host.reduce IntOp.andi x v reducesTo_S10_S_d0 h_S_) main_v71 main_c_27
  let main_v73 : IVec S_ 1 := andi main_v68 main_v72
  let main_v74 : FVec F S_ .f32 := Host.absf main_arg15
  let main_cst_28 : FVec F S_ .f32 := constant S_ .f32 0x7F800000#32
  let main_v75 : IVec S_ 1 := cmpf .olt main_v74 main_cst_28
  let main_c_29 : IVec S_ 1 := constantI S_ 1 1#1
  let main_v76 : IVec S_ 1 := (fun x v => Host.reduce IntOp.andi x v reducesTo_S_S_d h_S_) main_v75 main_c_29
  let main_v77 : IVec S_ 1 := andi main_v73 main_v76
  main_v77

def fn_part3 {F : FTy → Type} [FloatOps F] (main_arg11 : FVec F S2048 .f32) (main_arg12 : FVec F S2048 .f32) (main_arg13 : FVec F S10x2048 .f32) (main_arg14 : FVec F S10 .f32) (main_arg15 : FVec F S_ .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S10x2048 .f32 := Host.absf main_arg13
  let main_cst_24 : FVec F S_ .f32 := constant S_ .f32 0x7F800000#32
  let main_v65 : FVec F S10x2048 .f32 := broadcastInDim S10x2048 ![] bcast_S_S10x2048 main_cst_24
  let main_v66 : IVec S10x2048 1 := cmpf .olt main_v64 main_v65
  let main_c_25 : IVec S_ 1 := constantI S_ 1 1#1
  let main_v67 : IVec S_ 1 := (fun x v => Host.reduce IntOp.andi x v reducesTo_S10x2048_S_d0_1 h_S_) main_v66 main_c_25
  fn_part4 (F := F) main_arg14 main_arg15 main_v63 main_v67

def fn_part2 {F : FTy → Type} [FloatOps F] (main_arg7 : FVec F S2048x2048 .f32) (main_arg8 : FVec F S2048 .f32) (main_arg9 : FVec F S2048 .f32) (main_arg10 : FVec F S2048 .f32) (main_arg11 : FVec F S2048 .f32) (main_arg12 : FVec F S2048 .f32) (main_arg13 : FVec F S10x2048 .f32) (main_arg14 : FVec F S10 .f32) (main_arg15 : FVec F S_ .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_v48 main_v49 main_v50

def fn_part1 {F : FTy → Type} [FloatOps F] (main_arg4 : FVec F S2048 .f32) (main_arg5 : FVec F S2048 .f32) (main_arg6 : FVec F S2048 .f32) (main_arg7 : FVec F S2048x2048 .f32) (main_arg8 : FVec F S2048 .f32) (main_arg9 : FVec F S2048 .f32) (main_arg10 : FVec F S2048 .f32) (main_arg11 : FVec F S2048 .f32) (main_arg12 : FVec F S2048 .f32) (main_arg13 : FVec F S10x2048 .f32) (main_arg14 : FVec F S10 .f32) (main_arg15 : FVec F S_ .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S16384x1x28x28 .f32) (main_arg1 : FVec F S2048x784 .f32) (main_arg2 : FVec F S2048 .f32) (main_arg3 : FVec F S2048 .f32) (main_arg4 : FVec F S2048 .f32) (main_arg5 : FVec F S2048 .f32) (main_arg6 : FVec F S2048 .f32) (main_arg7 : FVec F S2048x2048 .f32) (main_arg8 : FVec F S2048 .f32) (main_arg9 : FVec F S2048 .f32) (main_arg10 : FVec F S2048 .f32) (main_arg11 : FVec F S2048 .f32) (main_arg12 : FVec F S2048 .f32) (main_arg13 : FVec F S10x2048 .f32) (main_arg14 : FVec F S10 .f32) (main_arg15 : FVec F S_ .f32) : IVec S_ 1 :=
  let main_v0 : FVec F S16384x1x28x28 .f32 := Host.absf main_arg0
  let main_cst : FVec F S_ .f32 := constant S_ .f32 0x7F800000#32
  let main_v1 : FVec F S16384x1x28x28 .f32 := broadcastInDim S16384x1x28x28 ![] bcast_S_S16384x1x28x28 main_cst
  let main_v2 : IVec S16384x1x28x28 1 := cmpf .olt main_v0 main_v1
  let main_c : IVec S_ 1 := constantI S_ 1 1#1
  let main_v3 : IVec S_ 1 := (fun x v => Host.reduce IntOp.andi x v reducesTo_S16384x1x28x28_S_d0_1_2_3 h_S_) main_v2 main_c
  let main_v4 : FVec F S2048x784 .f32 := Host.absf main_arg1
  let main_cst_0 : FVec F S_ .f32 := constant S_ .f32 0x7F800000#32
  let main_v5 : FVec F S2048x784 .f32 := broadcastInDim S2048x784 ![] bcast_S_S2048x784 main_cst_0
  let main_v6 : IVec S2048x784 1 := cmpf .olt main_v4 main_v5
  let main_c_1 : IVec S_ 1 := constantI S_ 1 1#1
  let main_v7 : IVec S_ 1 := (fun x v => Host.reduce IntOp.andi x v reducesTo_S2048x784_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S16384x1x28x28 : Shape := ⟨4, ![16384, 1, 28, 28]⟩
abbrev S2048x784 : Shape := ⟨2, ![2048, 784]⟩
abbrev S2048 : Shape := ⟨1, ![2048]⟩
abbrev S2048x2048 : Shape := ⟨2, ![2048, 2048]⟩
abbrev S10x2048 : Shape := ⟨2, ![10, 2048]⟩
abbrev S10 : Shape := ⟨1, ![10]⟩
abbrev S_ : Shape := ⟨0, ![]⟩
abbrev S16384x784 : Shape := ⟨2, ![16384, 784]⟩
abbrev S784x2048 : Shape := ⟨2, ![784, 2048]⟩
abbrev S2048x10 : Shape := ⟨2, ![2048, 10]⟩
abbrev S1x2048 : Shape := ⟨2, ![1, 2048]⟩
abbrev S1x10 : Shape := ⟨2, ![1, 10]⟩
abbrev S1x1 : Shape := ⟨2, ![1, 1]⟩
abbrev S16384x10 : Shape := ⟨2, ![16384, 10]⟩
abbrev S1024x784 : Shape := ⟨2, ![1024, 784]⟩
abbrev S1024x10 : Shape := ⟨2, ![1024, 10]⟩
abbrev S1024x2048 : Shape := ⟨2, ![1024, 2048]⟩

abbrev nBuf : Space → Nat
  | .hbm => 73
  | .vmem => 15
  | .smem => 0
  | _ => 0

abbrev bufTy : (tb : Table) → Fin (tcTables nBuf tb) → BufTy
  | .hbm, ⟨0, _⟩ => ⟨S16384x1x28x28, .f32⟩
  | .hbm, ⟨1, _⟩ => ⟨S2048x784, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S10x2048, .f32⟩
  | .hbm, ⟨14, _⟩ => ⟨S10, .f32⟩
  | .hbm, ⟨15, _⟩ => ⟨S_, .f32⟩
  | .hbm, ⟨16, _⟩ => ⟨S16384x784, .f32⟩
  | .hbm, ⟨17, _⟩ => ⟨S_, .f32⟩
  | .hbm, ⟨18, _⟩ => ⟨S2048x784, .f32⟩
  | .hbm, ⟨19, _⟩ => ⟨S2048x784, .i1⟩
  | .hbm, ⟨20, _⟩ => ⟨S_, .f32⟩
  | .hbm, ⟨21, _⟩ => ⟨S_, .f32⟩
  | .hbm, ⟨22, _⟩ => ⟨S2048x784, .f32⟩
  | .hbm, ⟨23, _⟩ => ⟨S2048x784, .f32⟩
  | .hbm, ⟨24, _⟩ => ⟨S2048x784, .f32⟩
  | .hbm, ⟨25, _⟩ => ⟨S2048x784, .f32⟩
  | .hbm, ⟨26, _⟩ => ⟨S784x2048, .f32⟩
  | .hbm, ⟨27, _⟩ => ⟨S784x2048, .bf16⟩
  | .hbm, ⟨28, _⟩ => ⟨S_, .f32⟩
  | .hbm, ⟨29, _⟩ => ⟨S2048x2048, .f32⟩
  | .hbm, ⟨30, _⟩ => ⟨S2048x2048, .i1⟩
  | .hbm, ⟨31, _⟩ => ⟨S_, .f32⟩
  | .hbm, ⟨32, _⟩ => ⟨S_, .f32⟩
  | .hbm, ⟨33, _⟩ => ⟨S2048x2048, .f32⟩
  | .hbm, ⟨34, _⟩ => ⟨S2048x2048, .f32⟩
  | .hbm, ⟨35, _⟩ => ⟨S2048x2048, .f32⟩
  | .hbm, ⟨36, _⟩ => ⟨S2048x2048, .f32⟩
  | .hbm, ⟨37, _⟩ => ⟨S2048x2048, .f32⟩
  | .hbm, ⟨38, _⟩ => ⟨S2048x2048, .bf16⟩
  | .hbm, ⟨39, _⟩ => ⟨S_, .f32⟩
  | .hbm, ⟨40, _⟩ => ⟨S10x2048, .f32⟩
  | .hbm, ⟨41, _⟩ => ⟨S10x2048, .i1⟩
  | .hbm, ⟨42, _⟩ => ⟨S_, .f32⟩
  | .hbm, ⟨43, _⟩ => ⟨S_, .f32⟩
  | .hbm, ⟨44, _⟩ => ⟨S10x2048, .f32⟩
  | .hbm, ⟨45, _⟩ => ⟨S10x2048, .f32⟩
  | .hbm, ⟨46, _⟩ => ⟨S10x2048, .f32⟩
  | .hbm, ⟨47, _⟩ => ⟨S10x2048, .f32⟩
  | .hbm, ⟨48, _⟩ => ⟨S2048x10, .f32⟩
  | .hbm, ⟨49, _⟩ => ⟨S2048x10, .bf16⟩
  | .hbm, ⟨50, _⟩ => ⟨S_, .f32⟩
  | .hbm, ⟨51, _⟩ => ⟨S2048, .f32⟩
  | .hbm, ⟨52, _⟩ => ⟨S2048, .f32⟩
  | .hbm, ⟨53, _⟩ => ⟨S2048, .f32⟩
  | .hbm, ⟨54, _⟩ => ⟨S2048, .f32⟩
  | .hbm, ⟨55, _⟩ => ⟨S2048, .f32⟩
  | .hbm, ⟨56, _⟩ => ⟨S2048, .f32⟩
  | .hbm, ⟨57, _⟩ => ⟨S_, .f32⟩
  | .hbm, ⟨58, _⟩ => ⟨S2048, .f32⟩
  | .hbm, ⟨59, _⟩ => ⟨S2048, .f32⟩
  | .hbm, ⟨60, _⟩ => ⟨S2048, .f32⟩
  | .hbm, ⟨61, _⟩ => ⟨S2048, .f32⟩
  | .hbm, ⟨62, _⟩ => ⟨S2048, .f32⟩
  | .hbm, ⟨63, _⟩ => ⟨S2048, .f32⟩
  | .hbm, ⟨64, _⟩ => ⟨S1x2048, .f32⟩
  | .hbm, ⟨65, _⟩ => ⟨S1x2048, .f32⟩
  | .hbm, ⟨66, _⟩ => ⟨S1x2048, .f32⟩
  | .hbm, ⟨67, _⟩ => ⟨S1x2048, .f32⟩
  | .hbm, ⟨68, _⟩ => ⟨S1x2048, .f32⟩
  | .hbm, ⟨69, _⟩ => ⟨S1x2048, .f32⟩
  | .hbm, ⟨70, _⟩ => ⟨S1x10, .f32⟩
  | .hbm, ⟨71, _⟩ => ⟨S1x1, .f32⟩
  | .hbm, ⟨72, _⟩ => ⟨S16384x10, .f32⟩
  | .local _ .vmem, ⟨0, _⟩ => ⟨S1024x784, .f32⟩
  | .local _ .vmem, ⟨1, _⟩ => ⟨S1024x784, .f32⟩
  | .local _ .vmem, ⟨2, _⟩ => ⟨S784x2048, .bf16⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S2048x2048, .bf16⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S2048x10, .bf16⟩
  | .local _ .vmem, ⟨11, _⟩ => ⟨S1x10, .f32⟩
  | .local _ .vmem, ⟨12, _⟩ => ⟨S1x1, .f32⟩
  | .local _ .vmem, ⟨13, _⟩ => ⟨S1024x10, .f32⟩
  | .local _ .vmem, ⟨14, _⟩ => ⟨S1024x10, .f32⟩
  | _, _ => ⟨S16384x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst_2 : Ref sig .tc := ⟨.hbm, 28, rfl⟩
abbrev main_v7 : Ref sig .tc := ⟨.hbm, 29, rfl⟩
abbrev main_v8 : Ref sig .tc := ⟨.hbm, 30, rfl⟩
abbrev main_cst_3 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_5 : Ref sig .tc := ⟨.hbm, 39, rfl⟩
abbrev main_v13 : Ref sig .tc := ⟨.hbm, 40, rfl⟩
abbrev main_v14 : Ref sig .tc := ⟨.hbm, 41, rfl⟩
abbrev main_cst_6 : Ref sig .tc := ⟨.hbm, 42, rfl⟩
abbrev main_cst_7 : Ref sig .tc := ⟨.hbm, 43, rfl⟩
abbrev main_call2_v0 : Ref sig .tc := ⟨.hbm, 44, rfl⟩
abbrev main_call2_v1 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_cst_8 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_cst_9 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg12_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem12_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S784x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x10 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x10 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  shapeCasts_S16384x1x28x28_S16384x784 : S16384x1x28x28.ShapeCasts S16384x784
  bcast_S_S2048x784 : S_.BroadcastsInDim S2048x784 (![] : Fin 0 → Fin S2048x784.rank)
  transposes_S2048x784_S784x2048_1_0 : S2048x784.Transposes [1, 0] S784x2048
  bitsLt_bf16_f32 : FTy.bits .bf16 < FTy.bits .f32
  bcast_S_S2048x2048 : S_.BroadcastsInDim S2048x2048 (![] : Fin 0 → Fin S2048x2048.rank)
  transposes_S2048x2048_S2048x2048_1_0 : S2048x2048.Transposes [1, 0] S2048x2048
  bcast_S_S10x2048 : S_.BroadcastsInDim S10x2048 (![] : Fin 0 → Fin S10x2048.rank)
  transposes_S10x2048_S2048x10_1_0 : S10x2048.Transposes [1, 0] S2048x10
  bcast_S_S2048 : S_.BroadcastsInDim S2048 (![] : Fin 0 → Fin S2048.rank)
  shapeCasts_S2048_S1x2048 : S2048.ShapeCasts S1x2048
  shapeCasts_S10_S1x10 : S10.ShapeCasts S1x10
  shapeCasts_S_S1x1 : S_.ShapeCasts S1x1
  inb_S1024x784_S1024x784_0_0 : ∀ a, (![0, 0] : Fin 2 → Nat) a + S1024x784.size a ≤ S1024x784.size a
  h_S1024x784 : 0 < S1024x784.numel
  shapeCasts_S1024x784_S1024x784 : S1024x784.ShapeCasts S1024x784
  inb_S784x2048_S784x2048_0_0 : ∀ a, (![0, 0] : Fin 2 → Nat) a + S784x2048.size a ≤ S784x2048.size a
  h_S784x2048 : 0 < S784x2048.numel
  shapeCasts_S784x2048_S784x2048 : S784x2048.ShapeCasts S784x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x10_S2048x10_0_0 : ∀ a, (![0, 0] : Fin 2 → Nat) a + S2048x10.size a ≤ S2048x10.size a
  h_S2048x10 : 0 < S2048x10.numel
  shapeCasts_S2048x10_S2048x10 : S2048x10.ShapeCasts S2048x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S1024x10 : S1x10.Broadcasts S1024x10
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x10 : S1x1.Broadcasts S1024x10
  inb_S1024x10_S1024x10_0_0 : ∀ a, (![0, 0] : Fin 2 → Nat) a + S1024x10.size a ≤ S1024x10.size a
  h_S1024x10 : 0 < S1024x10.numel
  dot_S1024x784_S784x2048_S1024x2048_1_0_0_1_n_n_wf : DotDims.WF S1024x784 S784x2048 S1024x2048 [1] [0] [0] [1] [] []
  dot_S1024x2048_S2048x2048_S1024x2048_1_0_0_1_n_n_wf : DotDims.WF S1024x2048 S2048x2048 S1024x2048 [1] [0] [0] [1] [] []
  dot_S1024x2048_S2048x10_S1024x10_1_0_0_1_n_n_wf : DotDims.WF S1024x2048 S2048x10 S1024x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S16384x784.size a
  hwx0_0 : ∀ i : grid0.Coords, EltTy.bits .f32 = 32 ∨ (Rect.block (s := S16384x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x2048.size a ≤ S784x2048.size a
  hwx0_1 : ∀ i : grid0.Coords, EltTy.bits .bf16 = 32 ∨ (Rect.block (s := S784x2048) S784x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2048x10.size a ≤ S2048x10.size a
  hwx0_9 : ∀ i : grid0.Coords, EltTy.bits .bf16 = 32 ∨ (Rect.block (s := S2048x10) S2048x10.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x10.size a ≤ S1x10.size a
  hwx0_10 : ∀ i : grid0.Coords, EltTy.bits .f32 = 32 ∨ (Rect.block (s := S1x10) S1x10.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x10.size a ≤ S16384x10.size a
  hwx0_12 : ∀ i : grid0.Coords, EltTy.bits .f32 = 32 ∨ (Rect.block (s := S16384x10) S1024x10.size (cc0_transform_12 i) (hinb0_12 i)).WholeWords (EltTy.packing .f32)

variable [Facts₀]

def dot_S1024x784_S784x2048_S1024x2048_1_0_0_1_n_n : DotDims S1024x784 S784x2048 S1024x2048 where
  lhsContracting := [1]
  rhsContracting := [0]
  lhsNonContracting := [0]
  rhsNonContracting := [1]
  lhsBatch := []
  rhsBatch := []
  wf := dot_S1024x784_S784x2048_S1024x2048_1_0_0_1_n_n_wf
def dot_S1024x2048_S2048x2048_S1024x2048_1_0_0_1_n_n : DotDims S1024x2048 S2048x2048 S1024x2048 where
  lhsContracting := [1]
  rhsContracting := [0]
  lhsNonContracting := [0]
  rhsNonContracting := [1]
  lhsBatch := []
  rhsBatch := []
  wf := dot_S1024x2048_S2048x2048_S1024x2048_1_0_0_1_n_n_wf
def dot_S1024x2048_S2048x10_S1024x10_1_0_0_1_n_n : DotDims S1024x2048 S2048x10 S1024x10 where
  lhsContracting := [1]
  rhsContracting := [0]
  lhsNonContracting := [0]
  rhsNonContracting := [1]
  lhsBatch := []
  rhsBatch := []
  wf := dot_S1024x2048_S2048x10_S1024x10_1_0_0_1_n_n_wf

abbrev win0_0 : Pipeline.Window sig grid0 :=
  Pipeline.Window.ofSpec (Memref.whole main_v0) S1024x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S784x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v34) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v35) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v36) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S2048x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v37) S1x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v38) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v39) S1024x10.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x1x28x28 : Shape := ⟨4, ![16384, 1, 28, 28]⟩
abbrev S2048x784 : Shape := ⟨2, ![2048, 784]⟩
abbrev S2048 : Shape := ⟨1, ![2048]⟩
abbrev S2048x2048 : Shape := ⟨2, ![2048, 2048]⟩
abbrev S10x2048 : Shape := ⟨2, ![10, 2048]⟩
abbrev S10 : Shape := ⟨1, ![10]⟩
abbrev S_ : Shape := ⟨0, ![]⟩
abbrev S16384x784 : Shape := ⟨2, ![16384, 784]⟩
abbrev S16384x2048 : Shape := ⟨2, ![16384, 2048]⟩
abbrev S1x2048 : Shape := ⟨2, ![1, 2048]⟩
abbrev S16384x10 : Shape := ⟨2, ![16384, 10]⟩
abbrev S1x10 : Shape := ⟨2, ![1, 10]⟩

abbrev nBuf : Space → Nat
  | .hbm => 118
  | .vmem => 0
  | .smem => 0
  | _ => 0

abbrev bufTy : (tb : Table) → Fin (tcTables nBuf tb) → BufTy
  | .hbm, ⟨0, _⟩ => ⟨S16384x1x28x28, .f32⟩
  | .hbm, ⟨1, _⟩ => ⟨S2048x784, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048, .f32⟩
  | .hbm, ⟨10, _⟩ => ⟨S2048, .f32⟩
  | .hbm, ⟨11, _⟩ => ⟨S2048, .f32⟩
  | .hbm, ⟨12, _⟩ => ⟨S2048, .f32⟩
  | .hbm, ⟨13, _⟩ => ⟨S10x2048, .f32⟩
  | .hbm, ⟨14, _⟩ => ⟨S10, .f32⟩
  | .hbm, ⟨15, _⟩ => ⟨S_, .f32⟩
  | .hbm, ⟨16, _⟩ => ⟨S16384x784, .f32⟩
  | .hbm, ⟨17, _⟩ => ⟨S_, .f32⟩
  | .hbm, ⟨18, _⟩ => ⟨S2048x784, .f32⟩
  | .hbm, ⟨19, _⟩ => ⟨S2048x784, .i1⟩
  | .hbm, ⟨20, _⟩ => ⟨S_, .f32⟩
  | .hbm, ⟨21, _⟩ => ⟨S_, .f32⟩
  | .hbm, ⟨22, _⟩ => ⟨S2048x784, .f32⟩
  | .hbm, ⟨23, _⟩ => ⟨S2048x784, .f32⟩
  | .hbm, ⟨24, _⟩ => ⟨S2048x784, .f32⟩
  | .hbm, ⟨25, _⟩ => ⟨S2048x784, .f32⟩
  | .hbm, ⟨26, _⟩ => ⟨S16384x2048, .f32⟩
  | .hbm, ⟨27, _⟩ => ⟨S1x2048, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S2048, .f32⟩
  | .hbm, ⟨32, _⟩ => ⟨S2048, .f32⟩
  | .hbm, ⟨33, _⟩ => ⟨S2048, .f32⟩
  | .hbm, ⟨34, _⟩ => ⟨S2048, .f32⟩
  | .hbm, ⟨35, _⟩ => ⟨S1x2048, .f32⟩
  | .hbm, ⟨36, _⟩ => ⟨S16384x2048, .f32⟩
  | .hbm, ⟨37, _⟩ => ⟨S16384x2048, .f32⟩
  | .hbm, ⟨38, _⟩ => ⟨S2048, .f32⟩
  | .hbm, ⟨39, _⟩ => ⟨S2048, .f32⟩
  | .hbm, ⟨40, _⟩ => ⟨S1x2048, .f32⟩
  | .hbm, ⟨41, _⟩ => ⟨S16384x2048, .f32⟩
  | .hbm, ⟨42, _⟩ => ⟨S16384x2048, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S16384x2048, .f32⟩
  | .hbm, ⟨47, _⟩ => ⟨S16384x2048, .f32⟩
  | .hbm, ⟨48, _⟩ => ⟨S_, .f32⟩
  | .hbm, ⟨49, _⟩ => ⟨S16384x2048, .f32⟩
  | .hbm, ⟨50, _⟩ => ⟨S16384x2048, .f32⟩
  | .hbm, ⟨51, _⟩ => ⟨S_, .f32⟩
  | .hbm, ⟨52, _⟩ => ⟨S16384x2048, .f32⟩
  | .hbm, ⟨53, _⟩ => ⟨S16384x2048, .i1⟩
  | .hbm, ⟨54, _⟩ => ⟨S_, .f32⟩
  | .hbm, ⟨55, _⟩ => ⟨S_, .f32⟩
  | .hbm, ⟨56, _⟩ => ⟨S16384x2048, .f32⟩
  | .hbm, ⟨57, _⟩ => ⟨S16384x2048, .f32⟩
  | .hbm, ⟨58, _⟩ => ⟨S16384x2048, .f32⟩
  | .hbm, ⟨59, _⟩ => ⟨S16384x2048, .f32⟩
  | .hbm, ⟨60, _⟩ => ⟨S_, .f32⟩
  | .hbm, ⟨61, _⟩ => ⟨S2048x2048, .f32⟩
  | .hbm, ⟨62, _⟩ => ⟨S2048x2048, .i1⟩
  | .hbm, ⟨63, _⟩ => ⟨S_, .f32⟩
  | .hbm, ⟨64, _⟩ => ⟨S_, .f32⟩
  | .hbm, ⟨65, _⟩ => ⟨S2048x2048, .f32⟩
  | .hbm, ⟨66, _⟩ => ⟨S2048x2048, .f32⟩
  | .hbm, ⟨67, _⟩ => ⟨S2048x2048, .f32⟩
  | .hbm, ⟨68, _⟩ => ⟨S2048x2048, .f32⟩
  | .hbm, ⟨69, _⟩ => ⟨S16384x2048, .f32⟩
  | .hbm, ⟨70, _⟩ => ⟨S1x2048, .f32⟩
  | .hbm, ⟨71, _⟩ => ⟨S16384x2048, .f32⟩
  | .hbm, ⟨72, _⟩ => ⟨S16384x2048, .f32⟩
  | .hbm, ⟨73, _⟩ => ⟨S_, .f32⟩
  | .hbm, ⟨74, _⟩ => ⟨S2048, .f32⟩
  | .hbm, ⟨75, _⟩ => ⟨S2048, .f32⟩
  | .hbm, ⟨76, _⟩ => ⟨S2048, .f32⟩
  | .hbm, ⟨77, _⟩ => ⟨S2048, .f32⟩
  | .hbm, ⟨78, _⟩ => ⟨S1x2048, .f32⟩
  | .hbm, ⟨79, _⟩ => ⟨S16384x2048, .f32⟩
  | .hbm, ⟨80, _⟩ => ⟨S16384x2048, .f32⟩
  | .hbm, ⟨81, _⟩ => ⟨S2048, .f32⟩
  | .hbm, ⟨82, _⟩ => ⟨S2048, .f32⟩
  | .hbm, ⟨83, _⟩ => ⟨S1x2048, .f32⟩
  | .hbm, ⟨84, _⟩ => ⟨S16384x2048, .f32⟩
  | .hbm, ⟨85, _⟩ => ⟨S16384x2048, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S16384x2048, .f32⟩
  | .hbm, ⟨90, _⟩ => ⟨S16384x2048, .f32⟩
  | .hbm, ⟨91, _⟩ => ⟨S_, .f32⟩
  | .hbm, ⟨92, _⟩ => ⟨S16384x2048, .f32⟩
  | .hbm, ⟨93, _⟩ => ⟨S16384x2048, .f32⟩
  | .hbm, ⟨94, _⟩ => ⟨S_, .f32⟩
  | .hbm, ⟨95, _⟩ => ⟨S16384x2048, .f32⟩
  | .hbm, ⟨96, _⟩ => ⟨S16384x2048, .i1⟩
  | .hbm, ⟨97, _⟩ => ⟨S_, .f32⟩
  | .hbm, ⟨98, _⟩ => ⟨S_, .f32⟩
  | .hbm, ⟨99, _⟩ => ⟨S16384x2048, .f32⟩
  | .hbm, ⟨100, _⟩ => ⟨S16384x2048, .f32⟩
  | .hbm, ⟨101, _⟩ => ⟨S16384x2048, .f32⟩
  | .hbm, ⟨102, _⟩ => ⟨S16384x2048, .f32⟩
  | .hbm, ⟨103, _⟩ => ⟨S_, .f32⟩
  | .hbm, ⟨104, _⟩ => ⟨S10x2048, .f32⟩
  | .hbm, ⟨105, _⟩ => ⟨S10x2048, .i1⟩
  | .hbm, ⟨106, _⟩ => ⟨S_, .f32⟩
  | .hbm, ⟨107, _⟩ => ⟨S_, .f32⟩
  | .hbm, ⟨108, _⟩ => ⟨S10x2048, .f32⟩
  | .hbm, ⟨109, _⟩ => ⟨S10x2048, .f32⟩
  | .hbm, ⟨110, _⟩ => ⟨S10x2048, .f32⟩
  | .hbm, ⟨111, _⟩ => ⟨S10x2048, .f32⟩
  | .hbm, ⟨112, _⟩ => ⟨S16384x10, .f32⟩
  | .hbm, ⟨113, _⟩ => ⟨S1x10, .f32⟩
  | .hbm, ⟨114, _⟩ => ⟨S16384x10, .f32⟩
  | .hbm, ⟨115, _⟩ => ⟨S16384x10, .f32⟩
  | .hbm, ⟨116, _⟩ => ⟨S16384x10, .f32⟩
  | .hbm, ⟨117, _⟩ => ⟨S16384x10, .f32⟩
  | _, _ => ⟨S16384x1x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_cst_1 : Ref sig .tc := ⟨.hbm, 21, rfl⟩
abbrev main_call0_v0 : Ref sig .tc := ⟨.hbm, 22, rfl⟩
abbrev main_call0_v1 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_cst_2 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_cst_4 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_v21 : Ref sig .tc := ⟨.hbm, 50, rfl⟩
abbrev main_cst_5 : Ref sig .tc := ⟨.hbm, 51, rfl⟩
abbrev main_v22 : Ref sig .tc := ⟨.hbm, 52, rfl⟩
abbrev main_v23 : Ref sig .tc := ⟨.hbm, 53, rfl⟩
abbrev main_cst_6 : Ref sig .tc := ⟨.hbm, 54, rfl⟩
abbrev main_cst_7 : Ref sig .tc := ⟨.hbm, 55, rfl⟩
abbrev main_call2_v0 : Ref sig .tc := ⟨.hbm, 56, rfl⟩
abbrev main_call2_v1 : Ref sig .tc := ⟨.hbm, 57, rfl⟩
abbrev main_v24 : Ref sig .tc := ⟨.hbm, 58, rfl⟩
abbrev main_v25 : Ref sig .tc := ⟨.hbm, 59, rfl⟩
abbrev main_cst_8 : Ref sig .tc := ⟨.hbm, 60, rfl⟩
abbrev main_v26 : Ref sig .tc := ⟨.hbm, 61, rfl⟩
abbrev main_v27 : Ref sig .tc := ⟨.hbm, 62, rfl⟩
abbrev main_cst_9 : Ref sig .tc := ⟨.hbm, 63, rfl⟩
abbrev main_cst_10 : Ref sig .tc := ⟨.hbm, 64, rfl⟩
abbrev main_call3_v0 : Ref sig .tc := ⟨.hbm, 65, rfl⟩
abbrev main_call3_v1 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_cst_11 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_cst_12 : Ref sig .tc := ⟨.hbm, 86, rfl⟩
abbrev main_cst_13 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_v46 : Ref sig .tc := ⟨.hbm, 93, rfl⟩
abbrev main_cst_14 : Ref sig .tc := ⟨.hbm, 94, rfl⟩
abbrev main_v47 : Ref sig .tc := ⟨.hbm, 95, rfl⟩
abbrev main_v48 : Ref sig .tc := ⟨.hbm, 96, rfl⟩
abbrev main_cst_15 : Ref sig .tc := ⟨.hbm, 97, rfl⟩
abbrev main_cst_16 : Ref sig .tc := ⟨.hbm, 98, rfl⟩
abbrev main_call5_v0 : Ref sig .tc := ⟨.hbm, 99, rfl⟩
abbrev main_call5_v1 : Ref sig .tc := ⟨.hbm, 100, rfl⟩
abbrev main_v49 : Ref sig .tc := ⟨.hbm, 101, rfl⟩
abbrev main_v50 : Ref sig .tc := ⟨.hbm, 102, rfl⟩
abbrev main_cst_17 : Ref sig .tc := ⟨.hbm, 103, rfl⟩
abbrev main_v51 : Ref sig .tc := ⟨.hbm, 104, rfl⟩
abbrev main_v52 : Ref sig .tc := ⟨.hbm, 105, rfl⟩
abbrev main_cst_18 : Ref sig .tc := ⟨.hbm, 106, rfl⟩
abbrev main_cst_19 : Ref sig .tc := ⟨.hbm, 107, rfl⟩
abbrev main_call6_v0 : Ref sig .tc := ⟨.hbm, 108, rfl⟩
abbrev main_call6_v1 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩

abbrev nD : Nat := 1
abbrev τ : Topo := Topo.v7x

variable {F : FTy → Type} [FloatOps F]

class Facts₀ : Prop where
  shapeCasts_S16384x1x28x28_S16384x784 : S16384x1x28x28.ShapeCasts S16384x784
  bcast_S_S2048x784 : S_.BroadcastsInDim S2048x784 (![] : Fin 0 → Fin S2048x784.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S2048 : S_.BroadcastsInDim S2048 (![] : Fin 0 → Fin S2048.rank)
  bcast_S_S16384x2048 : S_.BroadcastsInDim S16384x2048 (![] : Fin 0 → Fin S16384x2048.rank)
  bcast_S_S2048x2048 : S_.BroadcastsInDim S2048x2048 (![] : Fin 0 → Fin S2048x2048.rank)
  bcast_S_S10x2048 : S_.BroadcastsInDim S10x2048 (![] : Fin 0 → Fin S10x2048.rank)
  bcast_S10_S1x10_1 : S10.BroadcastsInDim S1x10 (![1] : Fin 1 → Fin S1x10.rank)
  bcast_S1x10_S16384x10_0_1 : S1x10.BroadcastsInDim S16384x10 (![0, 1] : Fin 2 → Fin S16384x10.rank)
  bcast_S_S16384x10 : S_.BroadcastsInDim S16384x10 (![] : Fin 0 → Fin S16384x10.rank)
  dot_S16384x784_S2048x784_S16384x2048_1_1_0_0_n_n_wf : DotDims.WF S16384x784 S2048x784 S16384x2048 [1] [1] [0] [0] [] []
  dot_S16384x2048_S2048x2048_S16384x2048_1_1_0_0_n_n_wf : DotDims.WF S16384x2048 S2048x2048 S16384x2048 [1] [1] [0] [0] [] []
  dot_S16384x2048_S10x2048_S16384x10_1_1_0_0_n_n_wf : DotDims.WF S16384x2048 S10x2048 S16384x10 [1] [1] [0] [0] [] []

variable [Facts₀]

def dot_S16384x784_S2048x784_S16384x2048_1_1_0_0_n_n : DotDims S16384x784 S2048x784 S16384x2048 where
  lhsContracting := [1]
  rhsContracting := [1]
  lhsNonContracting := [0]
  rhsNonContracting := [0]
  lhsBatch := []
  rhsBatch := []
  wf := dot_S16384x784_S2048x784_S16384x2048_1_1_0_0_n_n_wf
def dot_S16384x2048_S2048x2048_S16384x2048_1_1_0_0_n_n : DotDims S16384x2048 S2048x2048 S16384x2048 where
  lhsContracting := [1]
  rhsContracting := [1]
  lhsNonContracting := [0]
  rhsNonContracting := [0]
  lhsBatch := []
  rhsBatch := []
  wf := dot_S16384x2048_S2048x2048_S16384x2048_1_1_0_0_n_n_wf
def dot_S16384x2048_S10x2048_S16384x10_1_1_0_0_n_n : DotDims S16384x2048 S10x2048 S16384x10 where
  lhsContracting := [1]
  rhsContracting := [1]
  lhsNonContracting := [0]
  rhsNonContracting := [0]
  lhsBatch := []
  rhsBatch := []
  wf := dot_S16384x2048_S10x2048_S16384x10_1_1_0_0_n_n_wf

class Facts : Prop extends Facts₀ where

variable [Facts]
-- ==== Proof.Spec.lean ====
/-
  The mathematics both programs compute, free of either program's text.

  A binarized three-layer perceptron. Every hidden unit is an affine batch-norm of a dot product followed by a
  sign test; the output layer is a dot product plus a bias, times a learned scale. On the extended reals:

    sg h          = 1 where 0 ≤ h, -1 elsewhere                         (the binarizing sign test)
    clip h        = min 1 (max (-1) h)                                   (hardtanh)
    inv g v       = g · (v + ε)^(-1/2)                                   (the batch-norm scale s)
    sft be mu g v = be − mu · inv g v                                    (the batch-norm shift t)
    aff h b s t   = (h + b) · s + t                                      (bias, then batch-norm)
    dot a w       = Σ_k a k · w k

  The reference binarizes after the hardtanh (sg ∘ clip); the kernel drops the hardtanh, and in the first layer it
  adds a second pass over the residual x − x of its input. Two facts join them:
    * clip never moves a value across 0 (−1 < 0 ≤ 1), so sg ∘ clip = sg on every extended real;
    * for a FINITE input row x − x = 0 entry by entry, so the residual pass contributes Σ 0 · w = 0.
  Only the second needs the inputs to be finite; nothing else in the network does.
-/
import Idealize.ShloMosaic.PureOps.Ideal
import Idealize.ShloMosaic.PureOps.Ideal.Laws
import Idealize.ShloMosaic.Lib.ValueIdx

noncomputable section

open scoped BigOperators

namespace Cert.Bnn

open Idealize.ShloMosaic Idealize.ShloMosaic.ValueIdx

/-! ## Scalars -/

/-- The sign test: `1` where `0 ≤ h`, `-1` elsewhere (the three float words are 0.0, 1.0, -1.0). -/
def sg (h : EReal) : EReal :=
  Scalar.select (Ideal.cmp .oge h (Ideal.ofBits .f32 0x00000000#32)) (Ideal.ofBits .f32 0x3F800000#32) (Ideal.ofBits .f32 0xBF800000#32)

/-- The hardtanh `min 1 (max (-1) h)`. -/
def clip (h : EReal) : EReal := min (Ideal.ofBits .f32 0x3F800000#32) (max (Ideal.ofBits .f32 0xBF800000#32) h)

/-- The batch-norm scale `g · (v + ε)^(-1/2)`, ε the float word nearest 1e-5. -/
def inv (g v : EReal) : EReal := g * Ideal.rsqrt (v + Ideal.ofBits .f32 0x3727C5AC#32)

/-- The batch-norm shift `be − mu · inv g v`. -/
def sft (be mu g v : EReal) : EReal := be - mu * inv g v

/-- Bias then batch-norm, on a unit whose scale `s` and shift `t` are given: `(h + b) · s + t`. -/
def aff (h b s t : EReal) : EReal := (h + b) * s + t

/-- A dot product over `K` terms. -/
def dot {K : ℕ} (a w : Fin K → EReal) : EReal := ∑ k : Fin K, a k * w k

/-- A hidden unit as the reference computes it: sign test after the hardtanh. -/
def actR {K : ℕ} (a w : Fin K → EReal) (b s t : EReal) : EReal := sg (clip (aff (dot a w) b s t))

/-- A hidden unit as the kernel computes it past the first layer: the sign test alone. -/
def actK {K : ℕ} (a w : Fin K → EReal) (b s t : EReal) : EReal := sg (aff (dot a w) b s t)

/-- A first-layer unit as the kernel computes it: a second pass over the residual `a − a` is added to the product. -/
def actK1 {K : ℕ} (a w : Fin K → EReal) (b s t : EReal) : EReal :=
  sg (aff (dot a w + dot (fun k => a k - a k) w) b s t)

/-- An output unit: `(Σ a·w + b) · scale`. -/
def outU {K : ℕ} (a w : Fin K → EReal) (b sc : EReal) : EReal := (dot a w + b) * sc

/-! ## The two facts -/

theorem ofBits_one : Ideal.ofBits .f32 0x3F800000#32 = 1 := by
  simp [Ideal.ofBits, Ideal.ieee, -EReal.coe_mul]; norm_num

theorem ofBits_negone : Ideal.ofBits .f32 0xBF800000#32 = -1 := by
  simp [Ideal.ofBits, Ideal.ieee, -EReal.coe_mul]; norm_num

/-- The hardtanh never moves a value across 0. -/
theorem zero_le_clip_iff (h : EReal) : 0 ≤ clip h ↔ 0 ≤ h := by
  unfold clip
  rw [ofBits_one, ofBits_negone, le_min_iff, le_max_iff]
  constructor
  · rintro ⟨_, h1 | h1⟩
    · exact absurd h1 (by norm_num)
    · exact h1
  · intro h0
    exact ⟨zero_le_one, Or.inr h0⟩

/-- So binarizing after the hardtanh is binarizing. -/
theorem sg_clip (h : EReal) : sg (clip h) = sg h := by
  unfold sg Ideal.cmp
  simp only [Ideal.ofBits_zero_f32]
  rw [show decide ((0 : EReal) ≤ clip h) = decide ((0 : EReal) ≤ h) from by
    rw [decide_eq_decide]; exact zero_le_clip_iff h]

/-- The residual pass of a finite row vanishes. -/
theorem dot_resid {K : ℕ} (a w : Fin K → EReal) (hfin : ∀ k, a k ≠ ⊤ ∧ a k ≠ ⊥) :
    dot (fun k => a k - a k) w = 0 := by
  unfold dot
  exact Finset.sum_eq_zero fun k _ => by
    show (a k - a k) * w k = 0
    rw [EReal.sub_self (hfin k).1 (hfin k).2, zero_mul]

theorem actK_eq_actR {K : ℕ} (a w : Fin K → EReal) (b s t : EReal) :
    actK a w b s t = actR a w b s t := by
  unfold actK actR
  rw [sg_clip]

theorem actK1_eq_actR {K : ℕ} (a w : Fin K → EReal) (b s t : EReal) (hfin : ∀ k, a k ≠ ⊤ ∧ a k ≠ ⊥) :
    actK1 a w b s t = actR a w b s t := by
  unfold actK1 actR
  rw [dot_resid a w hfin, add_zero, sg_clip]

/-! ## The network over the argument arrays

The sixteen arguments: the image batch `x0` [16384,1,28,28]; per hidden layer a weight matrix [out,in] (`x1`, `x7`), a
bias, and the batch-norm's gamma, beta, mean, variance (`x2 … x6`, `x8 … x12`); the output layer's weights `x13` [10,2048]
and bias `x14`; the scale `x15`. Row `r` of the flattened batch holds pixel `(i / 28, i % 28)` of image `r` at column `i`;
a weight enters only through its sign test. -/

abbrev A4 : Type := (⟨4, ![16384, 1, 28, 28]⟩ : Shape).Idx → EReal
abbrev Mat (n k : ℕ) : Type := (⟨2, ![n, k]⟩ : Shape).Idx → EReal
abbrev Vc (n : ℕ) : Type := (⟨1, ![n]⟩ : Shape).Idx → EReal
abbrev Sc : Type := (⟨0, ![]⟩ : Shape).Idx → EReal

/-- Row `r` of the flattened image batch. -/
def xrow (x : A4) (r : Fin 16384) (i : Fin 784) : EReal :=
  x (ix4 r (0 : Fin 1) (⟨i.val / 28, by omega⟩ : Fin 28) (⟨i.val % 28, by omega⟩ : Fin 28))

/-- Row `j` of a binarized weight matrix. -/
def bz {n k : ℕ} (w : Mat n k) (j : Fin n) (i : Fin k) : EReal := sg (w (ix2 j i))

/-- The scale and the shift of hidden unit `j`. -/
def scl {n : ℕ} (g v : Vc n) (j : Fin n) : EReal := inv (g (ix1 j)) (v (ix1 j))
def shf {n : ℕ} (be mu g v : Vc n) (j : Fin n) : EReal := sft (be (ix1 j)) (mu (ix1 j)) (g (ix1 j)) (v (ix1 j))

/-- The first hidden layer on image `r`, as the reference and as the kernel compute it. -/
def h1R (x0 : A4) (x1 : Mat 2048 784) (x2 x3 x4 x5 x6 : Vc 2048) (r : Fin 16384) (j : Fin 2048) : EReal :=
  actR (xrow x0 r) (bz x1 j) (x2 (ix1 j)) (scl x3 x6 j) (shf x4 x5 x3 x6 j)
def h1K (x0 : A4) (x1 : Mat 2048 784) (x2 x3 x4 x5 x6 : Vc 2048) (r : Fin 16384) (j : Fin 2048) : EReal :=
  actK1 (xrow x0 r) (bz x1 j) (x2 (ix1 j)) (scl x3 x6 j) (shf x4 x5 x3 x6 j)

/-- The second hidden layer on a row `a` of first-layer activations. -/
def h2R (a : Fin 2048 → EReal) (x7 : Mat 2048 2048) (x8 x9 x10 x11 x12 : Vc 2048) (k : Fin 2048) : EReal :=
  actR a (bz x7 k) (x8 (ix1 k)) (scl x9 x12 k) (shf x10 x11 x9 x12 k)
def h2K (a : Fin 2048 → EReal) (x7 : Mat 2048 2048) (x8 x9 x10 x11 x12 : Vc 2048) (k : Fin 2048) : EReal :=
  actK a (bz x7 k) (x8 (ix1 k)) (scl x9 x12 k) (shf x10 x11 x9 x12 k)

/-- The output layer on a row `a` of second-layer activations. -/
def outRow (a : Fin 2048 → EReal) (x13 : Mat 10 2048) (x14 : Vc 10) (x15 : Sc) (q : Fin 10) : EReal :=
  outU a (bz x13 q) (x14 (ix1 q)) (x15 ix0)

/-- The reference's result array. -/
def GR (x0 : A4) (x1 : Mat 2048 784) (x2 x3 x4 x5 x6 : Vc 2048) (x7 : Mat 2048 2048) (x8 x9 x10 x11 x12 : Vc 2048)
    (x13 : Mat 10 2048) (x14 : Vc 10) (x15 : Sc) : Mat 16384 10 := fun i =>
  outRow (h2R (h1R x0 x1 x2 x3 x4 x5 x6 ⟨(i 0).val, (i 0).isLt⟩) x7 x8 x9 x10 x11 x12) x13 x14 x15 ⟨(i 1).val, (i 1).isLt⟩

/-- The kernel's result array. -/
def GK (x0 : A4) (x1 : Mat 2048 784) (x2 x3 x4 x5 x6 : Vc 2048) (x7 : Mat 2048 2048) (x8 x9 x10 x11 x12 : Vc 2048)
    (x13 : Mat 10 2048) (x14 : Vc 10) (x15 : Sc) : Mat 16384 10 := fun i =>
  outRow (h2K (h1K x0 x1 x2 x3 x4 x5 x6 ⟨(i 0).val, (i 0).isLt⟩) x7 x8 x9 x10 x11 x12) x13 x14 x15 ⟨(i 1).val, (i 1).isLt⟩

theorem GR_apply (x0 : A4) (x1 : Mat 2048 784) (x2 x3 x4 x5 x6 : Vc 2048) (x7 : Mat 2048 2048) (x8 x9 x10 x11 x12 : Vc 2048)
    (x13 : Mat 10 2048) (x14 : Vc 10) (x15 : Sc) (r : Fin 16384) (q : Fin 10) :
    GR x0 x1 x2 x3 x4 x5 x6 x7 x8 x9 x10 x11 x12 x13 x14 x15 (ix2 r q)
      = outRow (h2R (h1R x0 x1 x2 x3 x4 x5 x6 r) x7 x8 x9 x10 x11 x12) x13 x14 x15 q := rfl

theorem GK_apply (x0 : A4) (x1 : Mat 2048 784) (x2 x3 x4 x5 x6 : Vc 2048) (x7 : Mat 2048 2048) (x8 x9 x10 x11 x12 : Vc 2048)
    (x13 : Mat 10 2048) (x14 : Vc 10) (x15 : Sc) (r : Fin 16384) (q : Fin 10) :
    GK x0 x1 x2 x3 x4 x5 x6 x7 x8 x9 x10 x11 x12 x13 x14 x15 (ix2 r q)
      = outRow (h2K (h1K x0 x1 x2 x3 x4 x5 x6 r) x7 x8 x9 x10 x11 x12) x13 x14 x15 q := rfl

/-- On a finite image batch the kernel's array is the reference's. -/
theorem GK_eq_GR (x0 : A4) (x1 : Mat 2048 784) (x2 x3 x4 x5 x6 : Vc 2048) (x7 : Mat 2048 2048) (x8 x9 x10 x11 x12 : Vc 2048)
    (x13 : Mat 10 2048) (x14 : Vc 10) (x15 : Sc) (hfin : ∀ j, x0 j ≠ ⊤ ∧ x0 j ≠ ⊥) :
    GK x0 x1 x2 x3 x4 x5 x6 x7 x8 x9 x10 x11 x12 x13 x14 x15 = GR x0 x1 x2 x3 x4 x5 x6 x7 x8 x9 x10 x11 x12 x13 x14 x15 := by
  funext i
  unfold GK GR
  have e1 : ∀ r, h1K x0 x1 x2 x3 x4 x5 x6 r = h1R x0 x1 x2 x3 x4 x5 x6 r := fun r => funext fun j => by
    unfold h1K h1R
    exact actK1_eq_actR _ _ _ _ _ (fun k => hfin _)
  have e2 : ∀ a, h2K a x7 x8 x9 x10 x11 x12 = h2R a x7 x8 x9 x10 x11 x12 := fun a => funext fun k => by
    unfold h2K h2R
    exact actK_eq_actR _ _ _ _ _
  rw [e1, e2]

end Cert.Bnn

end
-- ==== Proof.RefRead.lean ====
/-
  The reference program read back as the network of `Spec`: its result array is `GR` of the sixteen arguments.

  Each stage of the program is read at an index with explicit coordinates. The flattened image batch is row `r`,
  column `i` ↦ pixel `(i / 28, i % 28)` of image `r`; a weight enters through its sign test; the bias, the
  batch-norm scale and the batch-norm shift are vectors repeated along the batch; a hidden unit is the sign test of
  the hardtanh of the affine image of a dot product; the output unit is a dot product plus a bias, times the scale.
-/
import proofs.«118059_j54013508715380_2_alg».proof.Proof.Gen.ReferenceIdeal.Read
import proofs.«118059_j54013508715380_2_alg».proof.Proof.Spec
import Idealize.ShloMosaic.Lib.ValueIdx
import Idealize.ShloMosaic.PureOps.Ideal
import Idealize.ShloMosaic.PureOps.Ideal.Laws

noncomputable section

open scoped BigOperators
open Idealize.ShloMosaic Idealize.ShloMosaic.ValueIdx Cert.ReferenceIdeal Cert.ReferenceIdeal.Gen Cert.ReferenceIdeal.Read Cert.Bnn

namespace Cert.ReferenceIdeal.RefValue

/-! ## The first layer's operands -/

/-- The reshaped batch at row `r`, column `i` is pixel `(i / 28, i % 28)` of image `r`:
    `(784 r + i) / 784 = r`, `(784 r + i) / 28 % 28 = i / 28`, `(784 r + i) % 28 = i % 28` for `i < 784`. -/
theorem x_at (x0 : A4) (r : Fin 16384) (i : Fin 784) :
    val_main_v0 (F := Ideal) x0 (ix2 r i) = xrow x0 r i := by
  rw [val_main_v0_apply]
  unfold xrow
  refine congrArg x0 (funext fun a => Fin.ext ?_)
  have hr : r.val < 16384 := r.isLt
  have hi : i.val < 784 := i.isLt
  match a with
  | ⟨0, _⟩ => show (r.val * 784 + i.val) / 784 = r.val; omega
  | ⟨1, _⟩ => rfl
  | ⟨2, _⟩ => show (r.val * 784 + i.val) / 28 % 28 = i.val / 28; omega
  | ⟨3, _⟩ => show (r.val * 784 + i.val) % 28 = i.val % 28; omega

/-- The first weight matrix enters through its sign test. -/
theorem w1_at (x1 : Mat 2048 784) (j : Fin 2048) (i : Fin 784) :
    val_main_v4 (F := Ideal) x1 (ix2 j i) = bz x1 j i := by
  rw [val_main_v4_apply, val_main_v3_apply, val_main_v2_apply, val_main_v1_apply, val_main_cst_apply,
    val_main_call0_v0_apply, val_main_cst_0_apply, val_main_call0_v1_apply, val_main_cst_1_apply]
  rfl

/-- The bias, repeated along the batch. -/
theorem b1_at (x2 : Vc 2048) (r : Fin 16384) (j : Fin 2048) :
    val_main_v7 (F := Ideal) x2 (ix2 r j) = x2 (ix1 j) := by
  rw [val_main_v7_apply, val_main_v6_apply]
  exact congrArg x2 (funext fun a => match a with | ⟨0, _⟩ => rfl)

/-- The batch-norm scale `g · (v + ε)^(-1/2)` of unit `j`. -/
theorem scale1_vec (x3 x6 : Vc 2048) (j : Fin 2048) :
    val_main_v12 (F := Ideal) x3 x6 (ix1 j) = scl x3 x6 j := by
  rw [val_main_v12_apply, val_main_v11_apply, val_main_v10_apply, val_main_v9_apply, val_main_cst_2_apply]
  rfl

/-- The scale, repeated along the batch. -/
theorem scale1_at (x3 x6 : Vc 2048) (r : Fin 16384) (j : Fin 2048) :
    val_main_v14 (F := Ideal) x3 x6 (ix2 r j) = scl x3 x6 j := by
  rw [val_main_v14_apply, val_main_v13_apply, ← scale1_vec x3 x6 j]
  exact congrArg (val_main_v12 (F := Ideal) x3 x6) (funext fun a => match a with | ⟨0, _⟩ => rfl)

/-- The batch-norm shift `be − mu · s` of unit `j`. -/
theorem shift1_vec (x3 x4 x5 x6 : Vc 2048) (j : Fin 2048) :
    val_main_v17 (F := Ideal) x3 x4 x5 x6 (ix1 j) = shf x4 x5 x3 x6 j := by
  rw [val_main_v17_apply, val_main_v16_apply, scale1_vec]
  rfl

/-- The shift, repeated along the batch. -/
theorem shift1_at (x3 x4 x5 x6 : Vc 2048) (r : Fin 16384) (j : Fin 2048) :
    val_main_v19 (F := Ideal) x3 x4 x5 x6 (ix2 r j) = shf x4 x5 x3 x6 j := by
  rw [val_main_v19_apply, val_main_v18_apply, ← shift1_vec x3 x4 x5 x6 j]
  exact congrArg (val_main_v17 (F := Ideal) x3 x4 x5 x6) (funext fun a => match a with | ⟨0, _⟩ => rfl)

/-- The first product: row `r` of the batch against row `j` of the binarized weights. -/
theorem dot1_at (x0 : A4) (x1 : Mat 2048 784) (r : Fin 16384) (j : Fin 2048) :
    val_main_v5 (F := Ideal) x0 x1 (ix2 r j) = dot (xrow x0 r) (bz x1 j) := by
  rw [val_main_v5_apply]
  unfold dot
  refine Finset.sum_congr rfl fun k _ => ?_
  have el : lidx_main_v5 (ix2 r j) k = ix2 r k :=
    funext fun a => Fin.ext (by match a with | ⟨0, _⟩ => rfl | ⟨1, _⟩ => rfl)
  have er : ridx_main_v5 (ix2 r j) k = ix2 j k :=
    funext fun a => Fin.ext (by match a with | ⟨0, _⟩ => rfl | ⟨1, _⟩ => rfl)
  rw [el, er, x_at, w1_at]

/-- The first layer's activations. -/
theorem a1_at (x0 : A4) (x1 : Mat 2048 784) (x2 x3 x4 x5 x6 : Vc 2048) (r : Fin 16384) (j : Fin 2048) :
    val_main_v25 (F := Ideal) x0 x1 x2 x3 x4 x5 x6 (ix2 r j) = h1R x0 x1 x2 x3 x4 x5 x6 r j := by
  rw [val_main_v25_apply, val_main_v24_apply, val_main_v23_apply, val_main_v22_apply, val_main_cst_5_apply,
    val_main_call2_v0_apply, val_main_cst_6_apply, val_main_call2_v1_apply, val_main_cst_7_apply,
    val_main_v21_apply, val_main_call1_v4_apply, val_main_call1_v3_apply, val_main_cst_4_apply,
    val_main_call1_v2_apply, val_main_call1_v1_apply, val_main_call1_v0_apply, val_main_cst_3_apply,
    val_main_v20_apply, val_main_v15_apply, val_main_v8_apply, dot1_at, b1_at, scale1_at, shift1_at]
  rfl

/-! ## The second layer -/

/-- The second weight matrix enters through its sign test. -/
theorem w2_at (x7 : Mat 2048 2048) (k : Fin 2048) (j : Fin 2048) :
    val_main_v29 (F := Ideal) x7 (ix2 k j) = bz x7 k j := by
  rw [val_main_v29_apply, val_main_v28_apply, val_main_v27_apply, val_main_v26_apply, val_main_cst_8_apply,
    val_main_call3_v0_apply, val_main_cst_9_apply, val_main_call3_v1_apply, val_main_cst_10_apply]
  rfl

/-- The bias, repeated along the batch. -/
theorem b2_at (x8 : Vc 2048) (r : Fin 16384) (k : Fin 2048) :
    val_main_v32 (F := Ideal) x8 (ix2 r k) = x8 (ix1 k) := by
  rw [val_main_v32_apply, val_main_v31_apply]
  exact congrArg x8 (funext fun a => match a with | ⟨0, _⟩ => rfl)

/-- The batch-norm scale of unit `k`. -/
theorem scale2_vec (x9 x12 : Vc 2048) (k : Fin 2048) :
    val_main_v37 (F := Ideal) x9 x12 (ix1 k) = scl x9 x12 k := by
  rw [val_main_v37_apply, val_main_v36_apply, val_main_v35_apply, val_main_v34_apply, val_main_cst_11_apply]
  rfl

/-- The scale, repeated along the batch. -/
theorem scale2_at (x9 x12 : Vc 2048) (r : Fin 16384) (k : Fin 2048) :
    val_main_v39 (F := Ideal) x9 x12 (ix2 r k) = scl x9 x12 k := by
  rw [val_main_v39_apply, val_main_v38_apply, ← scale2_vec x9 x12 k]
  exact congrArg (val_main_v37 (F := Ideal) x9 x12) (funext fun a => match a with | ⟨0, _⟩ => rfl)

/-- The batch-norm shift of unit `k`. -/
theorem shift2_vec (x9 x10 x11 x12 : Vc 2048) (k : Fin 2048) :
    val_main_v42 (F := Ideal) x9 x10 x11 x12 (ix1 k) = shf x10 x11 x9 x12 k := by
  rw [val_main_v42_apply, val_main_v41_apply, scale2_vec]
  rfl

/-- The shift, repeated along the batch. -/
theorem shift2_at (x9 x10 x11 x12 : Vc 2048) (r : Fin 16384) (k : Fin 2048) :
    val_main_v44 (F := Ideal) x9 x10 x11 x12 (ix2 r k) = shf x10 x11 x9 x12 k := by
  rw [val_main_v44_apply, val_main_v43_apply, ← shift2_vec x9 x10 x11 x12 k]
  exact congrArg (val_main_v42 (F := Ideal) x9 x10 x11 x12) (funext fun a => match a with | ⟨0, _⟩ => rfl)

/-- The second product: row `r` of the first layer's activations against row `k` of the binarized weights. -/
theorem dot2_at (x0 : A4) (x1 : Mat 2048 784) (x2 x3 x4 x5 x6 : Vc 2048) (x7 : Mat 2048 2048)
    (r : Fin 16384) (k : Fin 2048) :
    val_main_v30 (F := Ideal) x0 x1 x2 x3 x4 x5 x6 x7 (ix2 r k)
      = dot (h1R x0 x1 x2 x3 x4 x5 x6 r) (bz x7 k) := by
  rw [val_main_v30_apply]
  unfold dot
  refine Finset.sum_congr rfl fun j _ => ?_
  have el : lidx_main_v30 (ix2 r k) j = ix2 r j :=
    funext fun a => Fin.ext (by match a with | ⟨0, _⟩ => rfl | ⟨1, _⟩ => rfl)
  have er : ridx_main_v30 (ix2 r k) j = ix2 k j :=
    funext fun a => Fin.ext (by match a with | ⟨0, _⟩ => rfl | ⟨1, _⟩ => rfl)
  rw [el, er, a1_at, w2_at]

/-- The second layer's activations. -/
theorem a2_at (x0 : A4) (x1 : Mat 2048 784) (x2 x3 x4 x5 x6 : Vc 2048) (x7 : Mat 2048 2048)
    (x8 x9 x10 x11 x12 : Vc 2048) (r : Fin 16384) (k : Fin 2048) :
    val_main_v50 (F := Ideal) x0 x1 x2 x3 x4 x5 x6 x7 x8 x9 x10 x11 x12 (ix2 r k)
      = h2R (h1R x0 x1 x2 x3 x4 x5 x6 r) x7 x8 x9 x10 x11 x12 k := by
  rw [val_main_v50_apply, val_main_v49_apply, val_main_v48_apply, val_main_v47_apply, val_main_cst_14_apply,
    val_main_call5_v0_apply, val_main_cst_15_apply, val_main_call5_v1_apply, val_main_cst_16_apply,
    val_main_v46_apply, val_main_call4_v4_apply, val_main_call4_v3_apply, val_main_cst_13_apply,
    val_main_call4_v2_apply, val_main_call4_v1_apply, val_main_call4_v0_apply, val_main_cst_12_apply,
    val_main_v45_apply, val_main_v40_apply, val_main_v33_apply, dot2_at, b2_at, scale2_at, shift2_at]
  rfl

/-! ## The output layer -/

/-- The third weight matrix enters through its sign test. -/
theorem w3_at (x13 : Mat 10 2048) (q : Fin 10) (k : Fin 2048) :
    val_main_v54 (F := Ideal) x13 (ix2 q k) = bz x13 q k := by
  rw [val_main_v54_apply, val_main_v53_apply, val_main_v52_apply, val_main_v51_apply, val_main_cst_17_apply,
    val_main_call6_v0_apply, val_main_cst_18_apply, val_main_call6_v1_apply, val_main_cst_19_apply]
  rfl

/-- The output bias, repeated along the batch. -/
theorem b3_at (x14 : Vc 10) (r : Fin 16384) (q : Fin 10) :
    val_main_v57 (F := Ideal) x14 (ix2 r q) = x14 (ix1 q) := by
  rw [val_main_v57_apply, val_main_v56_apply]
  exact congrArg x14 (funext fun a => match a with | ⟨0, _⟩ => rfl)

/-- The scale, repeated over the whole result. -/
theorem sc_at (x15 : Sc) (r : Fin 16384) (q : Fin 10) :
    val_main_v59 (F := Ideal) x15 (ix2 r q) = x15 ix0 := by
  rw [val_main_v59_apply]

/-- The third product: row `r` of the second layer's activations against row `q` of the binarized weights. -/
theorem dot3_at (x0 : A4) (x1 : Mat 2048 784) (x2 x3 x4 x5 x6 : Vc 2048) (x7 : Mat 2048 2048)
    (x8 x9 x10 x11 x12 : Vc 2048) (x13 : Mat 10 2048) (r : Fin 16384) (q : Fin 10) :
    val_main_v55 (F := Ideal) x0 x1 x2 x3 x4 x5 x6 x7 x8 x9 x10 x11 x12 x13 (ix2 r q)
      = dot (h2R (h1R x0 x1 x2 x3 x4 x5 x6 r) x7 x8 x9 x10 x11 x12) (bz x13 q) := by
  rw [val_main_v55_apply]
  unfold dot
  refine Finset.sum_congr rfl fun k _ => ?_
  have el : lidx_main_v55 (ix2 r q) k = ix2 r k :=
    funext fun a => Fin.ext (by match a with | ⟨0, _⟩ => rfl | ⟨1, _⟩ => rfl)
  have er : ridx_main_v55 (ix2 r q) k = ix2 q k :=
    funext fun a => Fin.ext (by match a with | ⟨0, _⟩ => rfl | ⟨1, _⟩ => rfl)
  rw [el, er, a2_at, w3_at]

/-- The result at row `r`, class `q`. -/
theorem out_at (x0 : A4) (x1 : Mat 2048 784) (x2 x3 x4 x5 x6 : Vc 2048) (x7 : Mat 2048 2048)
    (x8 x9 x10 x11 x12 : Vc 2048) (x13 : Mat 10 2048) (x14 : Vc 10) (x15 : Sc) (r : Fin 16384) (q : Fin 10) :
    val_main_v60 (F := Ideal) x0 x1 x2 x3 x4 x5 x6 x7 x8 x9 x10 x11 x12 x13 x14 x15 (ix2 r q)
      = outRow (h2R (h1R x0 x1 x2 x3 x4 x5 x6 r) x7 x8 x9 x10 x11 x12) x13 x14 x15 q := by
  rw [val_main_v60_apply, val_main_v58_apply, dot3_at, b3_at, sc_at]
  rfl

/-! ## The reference's result is `GR` of the arguments -/

theorem ref_eq (x0 : Cert.Bnn.A4) (x1 : Cert.Bnn.Mat 2048 784) (x2 x3 x4 x5 x6 : Cert.Bnn.Vc 2048) (x7 : Cert.Bnn.Mat 2048 2048) (x8 x9 x10 x11 x12 : Cert.Bnn.Vc 2048) (x13 : Cert.Bnn.Mat 10 2048) (x14 : Cert.Bnn.Vc 10) (x15 : Cert.Bnn.Sc) :
    Cert.ReferenceIdeal.Read.val_main_v60 (F := Ideal) x0 x1 x2 x3 x4 x5 x6 x7 x8 x9 x10 x11 x12 x13 x14 x15
      = Cert.Bnn.GR x0 x1 x2 x3 x4 x5 x6 x7 x8 x9 x10 x11 x12 x13 x14 x15 := by
  funext i
  rw [eq_ix2 i]
  exact (out_at x0 x1 x2 x3 x4 x5 x6 x7 x8 x9 x10 x11 x12 x13 x14 x15 (i 0) (i 1)).trans
    (GR_apply x0 x1 x2 x3 x4 x5 x6 x7 x8 x9 x10 x11 x12 x13 x14 x15 (i 0) (i 1)).symm

end Cert.ReferenceIdeal.RefValue

end
-- ==== Proof.LibFinite.lean ====
/-
  Finite extended reals.

  An extended real is FINITE (here `IsReal`) when it is the image of a real number, equivalently when it is
  neither `⊤` nor `⊥`. The arithmetic of the extended reals is the arithmetic of the reals on the finite
  ones: sums, differences, products, finite sums, maxima and minima of finite values are finite, and so are a
  quotient by a finite divisor that is not zero, the exponential, and a power `r ^ (-1/2)` of a real `r ≥ 1`
  (which is moreover positive). Distributivity of the product over the sum FAILS on the extended reals at the
  infinities, so an algebraic law between two arrangements of a sum of products is proved on the reals and
  carried over; a part of this file is the toolkit for that: the coercion commutes with finite
  sums, and a family of finite extended reals is the coercion of a family of reals. The last part reads three
  stages of a network layer on finite values: min-max normalisation, the leaky activation, a column maximum or
  minimum.
-/
import Idealize.ShloMosaic.PureOps.Ideal
import Idealize.ShloMosaic.PureOps.Ideal.Laws
import Idealize.ShloMosaic.Lib.ValueIdx

noncomputable section

open scoped BigOperators

namespace Cert.Finite

open Idealize.ShloMosaic

/-! ## Finite extended reals -/

/-- `x` is (the coercion of) a real number. -/
def IsReal (x : EReal) : Prop := ∃ r : ℝ, x = (r : EReal)

/-- The coercion of a real is finite. -/
theorem isReal_coe (r : ℝ) : IsReal (r : EReal) := ⟨r, rfl⟩

/-- Finite means: neither infinity. -/
theorem isReal_iff_ne {x : EReal} : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- An extended real that is neither infinity is finite. -/
theorem isReal_of_ne {x : EReal} (ht : x ≠ ⊤) (hb : x ≠ ⊥) : IsReal x := isReal_iff_ne.mpr ⟨ht, hb⟩

/-- A finite value is not `⊤`. -/
theorem IsReal.ne_top {x : EReal} (h : IsReal x) : x ≠ ⊤ := (isReal_iff_ne.mp h).1

/-- A finite value is not `⊥`. -/
theorem IsReal.ne_bot {x : EReal} (h : IsReal x) : x ≠ ⊥ := (isReal_iff_ne.mp h).2

/-- A finite extended real is the coercion of its real part. -/
theorem IsReal.coe_toReal {x : EReal} (h : IsReal x) : ((x.toReal : ℝ) : EReal) = x :=
  EReal.coe_toReal h.ne_top h.ne_bot

/-- A finite value is above `⊥`. -/
theorem IsReal.bot_lt {x : EReal} (h : IsReal x) : ⊥ < x := bot_lt_iff_ne_bot.mpr h.ne_bot

/-- A finite value is below `⊤`. -/
theorem IsReal.lt_top {x : EReal} (h : IsReal x) : x < ⊤ := lt_top_iff_ne_top.mpr h.ne_top

/-- `⊤` is not finite. -/
theorem not_isReal_top : ¬ IsReal ⊤ := fun h => h.ne_top rfl

/-- `⊥` is not finite. -/
theorem not_isReal_bot : ¬ IsReal ⊥ := fun h => h.ne_bot rfl

/-! ## Closure under the arithmetic -/

/-- Zero is finite. -/
theorem isReal_zero : IsReal 0 := ⟨0, EReal.coe_zero.symm⟩

/-- One is finite. -/
theorem isReal_one : IsReal 1 := ⟨1, EReal.coe_one.symm⟩

/-- The sum of two finite values is finite. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The opposite of a finite value is finite. -/
theorem IsReal.neg {a : EReal} (ha : IsReal a) : IsReal (-a) := by
  obtain ⟨r, rfl⟩ := ha
  exact ⟨-r, (EReal.coe_neg r).symm⟩

/-- The difference of two finite values is finite. -/
theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- The product of two finite values is finite. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A finite sum of finite terms is finite. -/
theorem isReal_sum {ι : Type*} (s : Finset ι) (f : ι → EReal) (h : ∀ i ∈ s, IsReal (f i)) :
    IsReal (∑ i ∈ s, f i) :=
  Finset.sum_induction f IsReal (fun _ _ ha hb => ha.add hb) isReal_zero h

/-- The same over a whole finite type. -/
theorem isReal_sum_univ {ι : Type*} [Fintype ι] (f : ι → EReal) (h : ∀ i, IsReal (f i)) : IsReal (∑ i, f i) :=
  isReal_sum Finset.univ f fun i _ => h i

/-- A zero accumulator plus a finite sum of finite terms is finite. -/
theorem isReal_zero_add_sum {ι : Type*} (s : Finset ι) (f : ι → EReal) (h : ∀ i ∈ s, IsReal (f i)) :
    IsReal (0 + ∑ i ∈ s, f i) :=
  isReal_zero.add (isReal_sum s f h)

/-- A finite accumulator plus a finite sum of finite terms is finite. -/
theorem isReal_add_sum {ι : Type*} (s : Finset ι) (f : ι → EReal) {a : EReal} (ha : IsReal a)
    (h : ∀ i ∈ s, IsReal (f i)) : IsReal (a + ∑ i ∈ s, f i) :=
  ha.add (isReal_sum s f h)

/-! ## Maxima and minima -/

/-- The larger of two finite values is finite. -/
theorem IsReal.max {a b : EReal} (ha : IsReal a) (hb : IsReal b) : IsReal (max a b) := by
  rcases max_choice a b with h | h <;> rw [h] <;> assumption

/-- The smaller of two finite values is finite. -/
theorem IsReal.min {a b : EReal} (ha : IsReal a) (hb : IsReal b) : IsReal (min a b) := by
  rcases min_choice a b with h | h <;> rw [h] <;> assumption

/-- If every member of a family is finite, any value the family takes is finite: however a maximum or a
    minimum over the family is presented, once it is known to be attained it is finite. -/
theorem isReal_of_eq_apply {ι : Sort*} {f : ι → EReal} (h : ∀ i, IsReal (f i)) {m : EReal} (hm : ∃ i, m = f i) :
    IsReal m := by
  obtain ⟨i, rfl⟩ := hm
  exact h i

/-- The same over a finite set of indices. -/
theorem isReal_of_eq_apply_mem {ι : Type*} {s : Finset ι} {f : ι → EReal} (h : ∀ i ∈ s, IsReal (f i)) {m : EReal}
    (hm : ∃ i ∈ s, m = f i) : IsReal m := by
  obtain ⟨i, hi, rfl⟩ := hm
  exact h i hi

/-- The maximum of finitely many finite values, over a nonempty set of indices, is finite. -/
theorem isReal_sup' {ι : Type*} (s : Finset ι) (hs : s.Nonempty) (f : ι → EReal) (h : ∀ i ∈ s, IsReal (f i)) :
    IsReal (s.sup' hs f) := by
  obtain ⟨i, hi, he⟩ := Finset.exists_mem_eq_sup' hs f
  rw [he]
  exact h i hi

/-- The minimum of finitely many finite values, over a nonempty set of indices, is finite. -/
theorem isReal_inf' {ι : Type*} (s : Finset ι) (hs : s.Nonempty) (f : ι → EReal) (h : ∀ i ∈ s, IsReal (f i)) :
    IsReal (s.inf' hs f) := by
  obtain ⟨i, hi, he⟩ := Finset.exists_mem_eq_inf' hs f
  rw [he]
  exact h i hi

/-- The maximum of a family of finite values over a nonempty finite type is finite. -/
theorem isReal_univ_sup' {ι : Type*} [Fintype ι] [Nonempty ι] (f : ι → EReal) (h : ∀ i, IsReal (f i)) :
    IsReal (Finset.univ.sup' Finset.univ_nonempty f) :=
  isReal_sup' _ _ f fun i _ => h i

/-- The minimum of a family of finite values over a nonempty finite type is finite. -/
theorem isReal_univ_inf' {ι : Type*} [Fintype ι] [Nonempty ι] (f : ι → EReal) (h : ∀ i, IsReal (f i)) :
    IsReal (Finset.univ.inf' Finset.univ_nonempty f) :=
  isReal_inf' _ _ f fun i _ => h i

/-- A fold of `max` from a starting value is the starting value or one of the folded values. -/
theorem fold_max_eq_or {ι : Type*} (s : Finset ι) (b : EReal) (f : ι → EReal) :
    s.fold max b f = b ∨ ∃ i ∈ s, s.fold max b f = f i := by
  classical
  refine Finset.induction_on s (Or.inl (Finset.fold_empty)) ?_
  intro a t ha ih
  rw [Finset.fold_insert ha]
  rcases max_choice (f a) (t.fold max b f) with h | h
  · exact Or.inr ⟨a, Finset.mem_insert_self a t, h⟩
  · rw [h]
    rcases ih with ih | ⟨i, hi, ih⟩
    · exact Or.inl ih
    · exact Or.inr ⟨i, Finset.mem_insert_of_mem hi, ih⟩

/-- A fold of `min` from a starting value is the starting value or one of the folded values. -/
theorem fold_min_eq_or {ι : Type*} (s : Finset ι) (b : EReal) (f : ι → EReal) :
    s.fold min b f = b ∨ ∃ i ∈ s, s.fold min b f = f i := by
  classical
  refine Finset.induction_on s (Or.inl (Finset.fold_empty)) ?_
  intro a t ha ih
  rw [Finset.fold_insert ha]
  rcases min_choice (f a) (t.fold min b f) with h | h
  · exact Or.inr ⟨a, Finset.mem_insert_self a t, h⟩
  · rw [h]
    rcases ih with ih | ⟨i, hi, ih⟩
    · exact Or.inl ih
    · exact Or.inr ⟨i, Finset.mem_insert_of_mem hi, ih⟩

/-- A fold of `max` from a finite starting value over finite values is finite. -/
theorem isReal_fold_max {ι : Type*} (s : Finset ι) {b : EReal} (f : ι → EReal) (hb : IsReal b)
    (h : ∀ i ∈ s, IsReal (f i)) : IsReal (s.fold max b f) := by
  rcases fold_max_eq_or s b f with e | ⟨i, hi, e⟩ <;> rw [e]
  · exact hb
  · exact h i hi

/-- A fold of `min` from a finite starting value over finite values is finite. -/
theorem isReal_fold_min {ι : Type*} (s : Finset ι) {b : EReal} (f : ι → EReal) (hb : IsReal b)
    (h : ∀ i ∈ s, IsReal (f i)) : IsReal (s.fold min b f) := by
  rcases fold_min_eq_or s b f with e | ⟨i, hi, e⟩ <;> rw [e]
  · exact hb
  · exact h i hi

/-- A fold of `max` from `⊥` (the neutral element of a maximum) over finite values, on a nonempty set of
    indices, is finite: it is above one of them, hence not `⊥`, hence one of them. -/
theorem isReal_fold_max_bot {ι : Type*} (s : Finset ι) (hs : s.Nonempty) (f : ι → EReal)
    (h : ∀ i ∈ s, IsReal (f i)) : IsReal (s.fold max ⊥ f) := by
  rcases fold_max_eq_or s ⊥ f with e | ⟨i, hi, e⟩
  · obtain ⟨i, hi⟩ := hs
    have hle : f i ≤ s.fold max ⊥ f := (Finset.le_fold_max (f i)).mpr (Or.inr ⟨i, hi, le_rfl⟩)
    rw [e] at hle
    exact absurd (le_bot_iff.mp hle) (h i hi).ne_bot
  · rw [e]
    exact h i hi

/-- A fold of `min` from `⊤` (the neutral element of a minimum) over finite values, on a nonempty set of
    indices, is finite. -/
theorem isReal_fold_min_top {ι : Type*} (s : Finset ι) (hs : s.Nonempty) (f : ι → EReal)
    (h : ∀ i ∈ s, IsReal (f i)) : IsReal (s.fold min ⊤ f) := by
  rcases fold_min_eq_or s ⊤ f with e | ⟨i, hi, e⟩
  · obtain ⟨i, hi⟩ := hs
    have hle : s.fold min ⊤ f ≤ f i := (Finset.fold_min_le (f i)).mpr (Or.inr ⟨i, hi, le_rfl⟩)
    rw [e] at hle
    exact absurd (top_le_iff.mp hle) (h i hi).ne_top
  · rw [e]
    exact h i hi

/-! ## Quotient, exponential, power -/

/-- The quotient of two reals, the divisor not zero, is the real quotient. -/
theorem div_coe_coe (r : ℝ) {s : ℝ} (hs : s ≠ 0) : Ideal.div (r : EReal) (s : EReal) = ((r / s : ℝ) : EReal) := by
  rw [Ideal.div_coe hs, ← EReal.coe_mul, mul_one_div]

/-- The quotient of a finite value by a finite divisor that is not zero is finite. -/
theorem IsReal.div {a b : EReal} (ha : IsReal a) (hb : IsReal b) (hb0 : b ≠ 0) : IsReal (Ideal.div a b) := by
  obtain ⟨r, rfl⟩ := ha
  obtain ⟨s, rfl⟩ := hb
  have hs : s ≠ 0 := fun h0 => hb0 (by rw [h0, EReal.coe_zero])
  exact ⟨r / s, div_coe_coe r hs⟩

/-- The exponential of a real is a positive real. -/
theorem exp_coe_isReal (r : ℝ) : IsReal (Ideal.exp (r : EReal)) := ⟨Real.exp r, Ideal.exp_coe r⟩

/-- The exponential of a real is positive. -/
theorem exp_coe_pos (r : ℝ) : 0 < Ideal.exp (r : EReal) := by
  rw [Ideal.exp_coe]
  exact EReal.coe_pos.mpr (Real.exp_pos r)

/-- The exponential of a finite value is finite and positive. -/
theorem IsReal.exp {a : EReal} (ha : IsReal a) : IsReal (Ideal.exp a) ∧ 0 < Ideal.exp a := by
  obtain ⟨r, rfl⟩ := ha
  exact ⟨exp_coe_isReal r, exp_coe_pos r⟩

/-- A power of a positive real by a real exponent is a positive real. -/
theorem pow_coe_coe_of_pos {r : ℝ} (hr : 0 < r) (y : ℝ) :
    IsReal (Ideal.pow (r : EReal) (y : EReal)) ∧ 0 < Ideal.pow (r : EReal) (y : EReal) := by
  rw [Ideal.pow_coe_coe]
  exact ⟨isReal_coe _, EReal.coe_pos.mpr (Real.rpow_pos_of_pos hr y)⟩

/-- A real `r ≥ 1` to the power `-1/2` is a positive real. -/
theorem pow_neg_half_of_one_le {r : ℝ} (hr : 1 ≤ r) :
    IsReal (Ideal.pow (r : EReal) ((-(1 / 2) : ℝ) : EReal)) ∧ 0 < Ideal.pow (r : EReal) ((-(1 / 2) : ℝ) : EReal) :=
  pow_coe_coe_of_pos (lt_of_lt_of_le one_pos hr) _

/-- The same, naming the real value: `r ^ (-1/2) = (√r)⁻¹` for `r ≥ 0`. -/
theorem pow_neg_half_eq {r : ℝ} (hr : 0 ≤ r) :
    Ideal.pow (r : EReal) ((-(1 / 2) : ℝ) : EReal) = (((Real.sqrt r)⁻¹ : ℝ) : EReal) := by
  rw [Ideal.pow_coe_coe]
  congr 1
  show r ^ (-(1 / 2) : ℝ) = (Real.sqrt r)⁻¹
  rw [Real.rpow_neg hr, Real.sqrt_eq_rpow]

/-- The f32 pattern `0xBF000000` is the real `-1/2`. -/
theorem ofBits_neg_half_f32 : Ideal.ofBits .f32 0xBF000000#32 = ((-(1 / 2) : ℝ) : EReal) := by
  simp [Ideal.ofBits, Ideal.ieee, -EReal.coe_mul, -EReal.coe_neg]; norm_num

/-- A finite value `a ≥ 1` to the power written as the f32 pattern `0xBF000000` (that is `-1/2`) is finite and
    positive. -/
theorem IsReal.pow_neg_half {a : EReal} (ha : IsReal a) (h1 : 1 ≤ a) :
    IsReal (Ideal.pow a (Ideal.ofBits .f32 0xBF000000#32)) ∧ 0 < Ideal.pow a (Ideal.ofBits .f32 0xBF000000#32) := by
  obtain ⟨r, rfl⟩ := ha
  rw [ofBits_neg_half_f32]
  exact pow_neg_half_of_one_le (by exact_mod_cast h1)

/-- A finite value raised to at least one, `max a 1`, to the power `-1/2` (the f32 pattern `0xBF000000`) is finite
    and positive: the inverse square root of a degree clamped below by one. -/
theorem isReal_pow_neg_half_max_one {a : EReal} (ha : IsReal a) :
    IsReal (Ideal.pow (max a 1) (Ideal.ofBits .f32 0xBF000000#32))
      ∧ 0 < Ideal.pow (max a 1) (Ideal.ofBits .f32 0xBF000000#32) :=
  (ha.max isReal_one).pow_neg_half (le_max_right a 1)

/-! ## From finite extended reals to reals -/

/-- The coercion commutes with finite sums. -/
@[norm_cast]
theorem coe_sum {ι : Type*} (s : Finset ι) (f : ι → ℝ) : ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A family of finite extended reals is the coercion of a family of reals. -/
theorem exists_real_fun {ι : Sort*} (f : ι → EReal) (h : ∀ i, IsReal (f i)) : ∃ g : ι → ℝ, ∀ i, f i = (g i : EReal) := by
  choose g hg using h
  exact ⟨g, hg⟩

/-- The same for a family with two indices. -/
theorem exists_real_fun₂ {ι κ : Sort*} (f : ι → κ → EReal) (h : ∀ i k, IsReal (f i k)) :
    ∃ g : ι → κ → ℝ, ∀ i k, f i k = (g i k : EReal) := by
  choose g hg using h
  exact ⟨g, hg⟩

/-- As an equation of functions, ready for substitution. -/
theorem exists_real_fun_eq {ι : Sort*} (f : ι → EReal) (h : ∀ i, IsReal (f i)) :
    ∃ g : ι → ℝ, f = fun i => (g i : EReal) := by
  obtain ⟨g, hg⟩ := exists_real_fun f h
  exact ⟨g, funext hg⟩

/-- As an equation of functions, two indices. -/
theorem exists_real_fun₂_eq {ι κ : Sort*} (f : ι → κ → EReal) (h : ∀ i k, IsReal (f i k)) :
    ∃ g : ι → κ → ℝ, f = fun i k => (g i k : EReal) := by
  obtain ⟨g, hg⟩ := exists_real_fun₂ f h
  exact ⟨g, funext fun i => funext fun k => hg i k⟩

/-! ## Stages of a layer on finite values

Min-max normalisation, the leaky activation, and a column maximum or minimum keep finite values finite. -/

/-- Min-max normalisation of reals: `(a - r) / (s - r)` when `r < s`. -/
theorem minmax_coe (a : ℝ) {r s : ℝ} (h : r < s) :
    Ideal.div ((a : EReal) - (r : EReal)) ((s : EReal) - (r : EReal)) = (((a - r) / (s - r) : ℝ) : EReal) := by
  rw [← EReal.coe_sub, ← EReal.coe_sub]
  exact div_coe_coe _ (sub_ne_zero.mpr (ne_of_gt h))

/-- Min-max normalisation of a finite value between finite bounds `mn < mx` is finite. -/
theorem isReal_minmax {x mn mx : EReal} (hx : IsReal x) (hmn : IsReal mn) (hmx : IsReal mx) (h : mn < mx) :
    IsReal (Ideal.div (x - mn) (mx - mn)) := by
  obtain ⟨a, rfl⟩ := hx
  obtain ⟨r, rfl⟩ := hmn
  obtain ⟨s, rfl⟩ := hmx
  rw [minmax_coe a (EReal.coe_lt_coe_iff.mp h)]
  exact isReal_coe _

/-- An f32 word whose exponent field is not all ones (neither an infinity nor a NaN pattern) denotes a real. -/
theorem isReal_ofBits_f32 (w : BitVec 32) (h : (w.extractLsb' 23 8).toNat ≠ 2 ^ 8 - 1) :
    IsReal (Ideal.ofBits .f32 w) := by
  show IsReal (Ideal.ieee 8 23 w)
  unfold Ideal.ieee
  simp only [if_neg h]
  split_ifs <;> exact isReal_coe _

/-- The f32 word `0x3C23D70A` (the slope `0.01` of the leaky activation, rounded) denotes a real. -/
theorem isReal_ofBits_slope : IsReal (Ideal.ofBits .f32 0x3C23D70A#32) :=
  isReal_ofBits_f32 _ (by decide)

/-- The f32 word `0xFF800000` is `-∞`. -/
theorem ofBits_neg_inf_f32 : Ideal.ofBits .f32 0xFF800000#32 = ⊥ := by simp [Ideal.ofBits, Ideal.ieee]

/-- The f32 word `0x7F800000` is `+∞`. -/
theorem ofBits_pos_inf_f32 : Ideal.ofBits .f32 0x7F800000#32 = ⊤ := by simp [Ideal.ofBits, Ideal.ieee]

/-- The comparison `y > 0` against the f32 zero word answers the bit one when `0 < y`. -/
theorem cmpf_ogt_zero_of_pos {y : Ideal .f32} (hy : 0 < y) :
    FloatOps.cmpf .ogt y (Ideal.ofBits .f32 0x00000000#32) = 1#1 := by
  rw [Ideal.cmpf_def, Ideal.ofBits_zero_f32]
  show BitVec.ofBool (decide ((0 : EReal) < y)) = 1#1
  rw [decide_eq_true hy]
  rfl

/-- The comparison `y > 0` against the f32 zero word answers the bit zero when not `0 < y`. -/
theorem cmpf_ogt_zero_of_not_pos {y : Ideal .f32} (hy : ¬ 0 < y) :
    FloatOps.cmpf .ogt y (Ideal.ofBits .f32 0x00000000#32) = 0#1 := by
  rw [Ideal.cmpf_def, Ideal.ofBits_zero_f32]
  show BitVec.ofBool (decide ((0 : EReal) < y)) = 0#1
  rw [decide_eq_false hy]
  rfl

/-- The leaky activation `if y > 0 then y else c * y` at a positive value is the value. -/
theorem leaky_of_pos (c : Ideal .f32) {y : Ideal .f32} (hy : 0 < y) :
    Scalar.select (FloatOps.cmpf .ogt y (Ideal.ofBits .f32 0x00000000#32)) y (c * y) = y := by
  rw [cmpf_ogt_zero_of_pos hy]
  exact if_pos rfl

/-- The leaky activation at a value that is not positive is the slope times the value. -/
theorem leaky_of_not_pos (c : Ideal .f32) {y : Ideal .f32} (hy : ¬ 0 < y) :
    Scalar.select (FloatOps.cmpf .ogt y (Ideal.ofBits .f32 0x00000000#32)) y (c * y) = c * y := by
  rw [cmpf_ogt_zero_of_not_pos hy]
  exact if_neg (by decide)

/-- The leaky activation of a finite value with a finite slope is finite. -/
theorem isReal_leaky {c y : Ideal .f32} (hc : IsReal c) (hy : IsReal y) :
    IsReal (Scalar.select (FloatOps.cmpf .ogt y (Ideal.ofBits .f32 0x00000000#32)) y (c * y)) := by
  by_cases h : 0 < y
  · rw [leaky_of_pos c h]
    exact hy
  · rw [leaky_of_not_pos c h]
    exact hc.mul hy

/-- The leaky activation with the slope word `0x3C23D70A` of a finite value is finite. -/
theorem isReal_leaky_slope {y : Ideal .f32} (hy : IsReal y) :
    IsReal (Scalar.select (FloatOps.cmpf .ogt y (Ideal.ofBits .f32 0x00000000#32)) y
      (Ideal.ofBits .f32 0x3C23D70A#32 * y)) :=
  isReal_leaky isReal_ofBits_slope hy

/-! ### A maximum or minimum over one axis -/

section Reduce

variable {s t u : Shape} {a : Fin s.rank} {φ : FTy}

/-- A reduction with a maximum body over one axis is, at `j`, the fold of `max` from the initial value over that
    axis's coordinates. -/
theorem hostReduce_maximumf_eq_fold (x : FVec Ideal s φ) (init : FVec Ideal u φ) (h' : s.ReducesTo [a] t)
    (h : s.Reduces [a] t) (hu : 0 < u.numel) (j : t.Idx) :
    Host.reduce FloatOps.maximumf x init h' hu j
      = (Finset.univ : Finset (Fin (s.size a))).fold max (init (Shape.Idx.first hu)) (x ∘ h.lift j) :=
  Host.reduce_eq_fold_single FloatOps.maximumf x init h' h hu j

/-- A reduction with a minimum body over one axis is, at `j`, the fold of `min` from the initial value over that
    axis's coordinates. -/
theorem hostReduce_minimumf_eq_fold (x : FVec Ideal s φ) (init : FVec Ideal u φ) (h' : s.ReducesTo [a] t)
    (h : s.Reduces [a] t) (hu : 0 < u.numel) (j : t.Idx) :
    Host.reduce FloatOps.minimumf x init h' hu j
      = (Finset.univ : Finset (Fin (s.size a))).fold min (init (Shape.Idx.first hu)) (x ∘ h.lift j) :=
  Host.reduce_eq_fold_single FloatOps.minimumf x init h' h hu j

/-- The maximum over a nonempty axis, from `-∞`, of finite values is finite. -/
theorem isReal_hostReduce_maximumf (x : FVec Ideal s φ) (init : FVec Ideal u φ) (h' : s.ReducesTo [a] t)
    (h : s.Reduces [a] t) (hu : 0 < u.numel) (hinit : init (Shape.Idx.first hu) = ⊥) (hpos : 0 < s.size a)
    (hx : ∀ i, IsReal (x i)) (j : t.Idx) : IsReal (Host.reduce (α := Ideal φ) FloatOps.maximumf x init h' hu j) := by
  rw [hostReduce_maximumf_eq_fold x init h' h hu j, hinit]
  exact isReal_fold_max_bot _ ⟨⟨0, hpos⟩, Finset.mem_univ _⟩ _ fun k _ => hx _

/-- The maximum over an axis is at least every value along it. -/
theorem le_hostReduce_maximumf (x : FVec Ideal s φ) (init : FVec Ideal u φ) (h' : s.ReducesTo [a] t)
    (h : s.Reduces [a] t) (hu : 0 < u.numel) (j : t.Idx) (k : Fin (s.size a)) :
    x (h.lift j k) ≤ Host.reduce FloatOps.maximumf x init h' hu j := by
  rw [hostReduce_maximumf_eq_fold x init h' h hu j]
  exact (Finset.le_fold_max _).mpr (Or.inr ⟨k, Finset.mem_univ _, le_rfl⟩)

/-- Every entry is at most the maximum at the index it reduces to. -/
theorem le_hostReduce_maximumf_drop (x : FVec Ideal s φ) (init : FVec Ideal u φ) (h' : s.ReducesTo [a] t)
    (h : s.Reduces [a] t) (hu : 0 < u.numel) (i : s.Idx) :
    x i ≤ Host.reduce FloatOps.maximumf x init h' hu (h.drop i) := by
  have e := le_hostReduce_maximumf x init h' h hu (h.drop i) (i a)
  rwa [h.lift_drop] at e

/-- The maximum over a nonempty axis, from `-∞`, of finite values is one of them. -/
theorem hostReduce_maximumf_attained (x : FVec Ideal s φ) (init : FVec Ideal u φ) (h' : s.ReducesTo [a] t)
    (h : s.Reduces [a] t) (hu : 0 < u.numel) (hinit : init (Shape.Idx.first hu) = ⊥) (hpos : 0 < s.size a)
    (hx : ∀ i, IsReal (x i)) (j : t.Idx) :
    ∃ k : Fin (s.size a), Host.reduce FloatOps.maximumf x init h' hu j = x (h.lift j k) := by
  have hr := isReal_hostReduce_maximumf x init h' h hu hinit hpos hx j
  rw [hostReduce_maximumf_eq_fold x init h' h hu j, hinit] at hr ⊢
  rcases fold_max_eq_or Finset.univ ⊥ (x ∘ h.lift j) with e | ⟨k, _, e⟩
  · rw [e] at hr
    exact absurd hr not_isReal_bot
  · exact ⟨k, e⟩

/-- The minimum over a nonempty axis, from `+∞`, of finite values is finite. -/
theorem isReal_hostReduce_minimumf (x : FVec Ideal s φ) (init : FVec Ideal u φ) (h' : s.ReducesTo [a] t)
    (h : s.Reduces [a] t) (hu : 0 < u.numel) (hinit : init (Shape.Idx.first hu) = ⊤) (hpos : 0 < s.size a)
    (hx : ∀ i, IsReal (x i)) (j : t.Idx) : IsReal (Host.reduce (α := Ideal φ) FloatOps.minimumf x init h' hu j) := by
  rw [hostReduce_minimumf_eq_fold x init h' h hu j, hinit]
  exact isReal_fold_min_top _ ⟨⟨0, hpos⟩, Finset.mem_univ _⟩ _ fun k _ => hx _

/-- The minimum over an axis is at most every value along it. -/
theorem hostReduce_minimumf_le (x : FVec Ideal s φ) (init : FVec Ideal u φ) (h' : s.ReducesTo [a] t)
    (h : s.Reduces [a] t) (hu : 0 < u.numel) (j : t.Idx) (k : Fin (s.size a)) :
    Host.reduce FloatOps.minimumf x init h' hu j ≤ x (h.lift j k) := by
  rw [hostReduce_minimumf_eq_fold x init h' h hu j]
  exact (Finset.fold_min_le _).mpr (Or.inr ⟨k, Finset.mem_univ _, le_rfl⟩)

/-- Every entry is at least the minimum at the index it reduces to. -/
theorem hostReduce_minimumf_drop_le (x : FVec Ideal s φ) (init : FVec Ideal u φ) (h' : s.ReducesTo [a] t)
    (h : s.Reduces [a] t) (hu : 0 < u.numel) (i : s.Idx) :
    Host.reduce FloatOps.minimumf x init h' hu (h.drop i) ≤ x i := by
  have e := hostReduce_minimumf_le x init h' h hu (h.drop i) (i a)
  rwa [h.lift_drop] at e

/-- The minimum over a nonempty axis, from `+∞`, of finite values is one of them. -/
theorem hostReduce_minimumf_attained (x : FVec Ideal s φ) (init : FVec Ideal u φ) (h' : s.ReducesTo [a] t)
    (h : s.Reduces [a] t) (hu : 0 < u.numel) (hinit : init (Shape.Idx.first hu) = ⊤) (hpos : 0 < s.size a)
    (hx : ∀ i, IsReal (x i)) (j : t.Idx) :
    ∃ k : Fin (s.size a), Host.reduce FloatOps.minimumf x init h' hu j = x (h.lift j k) := by
  have hr := isReal_hostReduce_minimumf x init h' h hu hinit hpos hx j
  rw [hostReduce_minimumf_eq_fold x init h' h hu j, hinit] at hr ⊢
  rcases fold_min_eq_or Finset.univ ⊤ (x ∘ h.lift j) with e | ⟨k, _, e⟩
  · rw [e] at hr
    exact absurd hr not_isReal_top
  · exact ⟨k, e⟩

end Reduce

/-! ### The column maximum and minimum of a matrix -/

section Column

open Idealize.ShloMosaic.ValueIdx

variable {R C : Nat}

/-- In a reduction of an `R × C` matrix over its rows, column `c` with row `k` put back is the entry `(k, c)`. -/
theorem lift_ix2 (h : (⟨2, ![R, C]⟩ : Shape).Reduces [0] (⟨1, ![C]⟩ : Shape)) (c : Fin C)
    (k : Fin ((⟨2, ![R, C]⟩ : Shape).size 0)) : h.lift (ix1 c) k = ix2 (⟨k.val, k.isLt⟩ : Fin R) c := by
  funext d
  apply Fin.ext
  fin_cases d <;> rfl

/-- The column maximum, from the word of `-∞`, of a matrix of finite values with at least one row is finite. -/
theorem isReal_colMax (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    IsReal (Host.reduce (α := Ideal .f32) FloatOps.maximumf x (constant (⟨0, ![]⟩ : Shape) .f32 0xFF800000#32) h' hu (ix1 c)) :=
  isReal_hostReduce_maximumf x (constant (⟨0, ![]⟩ : Shape) .f32 0xFF800000#32) h' h hu ofBits_neg_inf_f32 hR hx (ix1 c)

/-- The column maximum is at least every entry of the column. -/
theorem le_colMax (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (r : Fin R) (c : Fin C) :
    x (ix2 r c) ≤ Host.reduce FloatOps.maximumf x (constant (⟨0, ![]⟩ : Shape) .f32 0xFF800000#32) h' hu (ix1 c) := by
  have e := le_hostReduce_maximumf x (constant (⟨0, ![]⟩ : Shape) .f32 0xFF800000#32) h' h hu (ix1 c) r
  rwa [lift_ix2 h c r] at e

/-- The column maximum of a matrix of finite values with at least one row is an entry of the column. -/
theorem colMax_attained (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    ∃ r : Fin R,
      Host.reduce FloatOps.maximumf x (constant (⟨0, ![]⟩ : Shape) .f32 0xFF800000#32) h' hu (ix1 c) = x (ix2 r c) := by
  obtain ⟨k, e⟩ := hostReduce_maximumf_attained x (constant (⟨0, ![]⟩ : Shape) .f32 0xFF800000#32) h' h hu ofBits_neg_inf_f32 hR hx (ix1 c)
  exact ⟨⟨k.val, k.isLt⟩, by rw [e, lift_ix2 h c k]⟩

/-- The column minimum, from the word of `+∞`, of a matrix of finite values with at least one row is finite. -/
theorem isReal_colMin (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    IsReal (Host.reduce (α := Ideal .f32) FloatOps.minimumf x (constant (⟨0, ![]⟩ : Shape) .f32 0x7F800000#32) h' hu (ix1 c)) :=
  isReal_hostReduce_minimumf x (constant (⟨0, ![]⟩ : Shape) .f32 0x7F800000#32) h' h hu ofBits_pos_inf_f32 hR hx (ix1 c)

/-- The column minimum is at most every entry of the column. -/
theorem colMin_le (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (r : Fin R) (c : Fin C) :
    Host.reduce FloatOps.minimumf x (constant (⟨0, ![]⟩ : Shape) .f32 0x7F800000#32) h' hu (ix1 c) ≤ x (ix2 r c) := by
  have e := hostReduce_minimumf_le x (constant (⟨0, ![]⟩ : Shape) .f32 0x7F800000#32) h' h hu (ix1 c) r
  rwa [lift_ix2 h c r] at e

/-- The column minimum of a matrix of finite values with at least one row is an entry of the column. -/
theorem colMin_attained (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    ∃ r : Fin R,
      Host.reduce FloatOps.minimumf x (constant (⟨0, ![]⟩ : Shape) .f32 0x7F800000#32) h' hu (ix1 c) = x (ix2 r c) := by
  obtain ⟨k, e⟩ := hostReduce_minimumf_attained x (constant (⟨0, ![]⟩ : Shape) .f32 0x7F800000#32) h' h hu ofBits_pos_inf_f32 hR hx (ix1 c)
  exact ⟨⟨k.val, k.isLt⟩, by rw [e, lift_ix2 h c k]⟩

end Column

end Cert.Finite
-- ==== Proof.LibPreDecode.lean ====
/-
  A predicate that is a conjunction of "all entries of an array satisfy a comparison", read back.

  Such a predicate is a one-bit scalar built from three things: an entrywise comparison of two arrays, giving an
  array of one-bit words; a reduction of that array by "and" over all axes, from the word 1; and the "and" of several
  such scalars. If the scalar is 1 then every conjunct is 1 (a conjunction of one-bit words is 1 exactly when each
  word is), a reduction by "and" that came out 1 met only 1s, and a comparison word that is 1 says the comparison
  holds. Over the extended reals two comparisons matter here: "x > y" is the strict order, and "|x| < +infinity"
  says exactly that x is finite, the image of a real number (it excludes both infinities; |x| is max x (-x)).

  The statements are over an arbitrary array shape, an arbitrary float format whose compared pattern denotes +infinity
  (with the f32 and bf16 patterns as instances), and both ways a scalar is said to be 1: at its one index, or as the
  constant function. Nothing here mentions a particular program.
-/
import Idealize.ShloMosaic.PureOps.Ideal
import Idealize.ShloMosaic.PureOps.Ideal.Laws
import Idealize.ShloMosaic.Lib.ValueIdx
import Idealize.ShloMosaic.Lib.ReduceAll
import proofs.«118059_j54013508715380_2_alg».proof.Proof.LibFinite

noncomputable section

namespace Cert.PreDecodeLib

open Idealize.ShloMosaic Idealize.ShloMosaic.ValueIdx
open Cert.Finite

/-! ## The scalar shape -/

/-- The shape of a scalar: rank 0. -/
abbrev S0 : Shape := ⟨0, ![]⟩

/-- The scalar shape has one index. -/
instance subsingleton_S0_idx : Subsingleton S0.Idx := ⟨fun a b => funext fun d => d.elim0⟩

/-- A one-bit scalar that is the constant function 1 is 1 at its one index. -/
theorem at_ix0_of_eq_one {x : IVec S0 1} (h : x = fun _ => 1#1) : x ix0 = 1#1 := congrFun h ix0

/-- A one-bit scalar that is 1 at its one index is the constant function 1. -/
theorem eq_one_of_at_ix0 {x : IVec S0 1} (h : x ix0 = 1#1) : x = fun _ => 1#1 :=
  funext fun i => by rw [eq_ix0 i]; exact h

/-! ## One-bit words -/

/-- A one-bit word made from a decision is 1 exactly when the decision holds. -/
theorem ofBool_eq_one (b : Bool) : BitVec.ofBool b = 1#1 ↔ b = true := by cases b <;> decide

/-- The entrywise "and" of two arrays of one-bit words is 1 at an index exactly when both are 1 there. -/
theorem andi_eq_one_at {s : Shape} {x y : IVec s 1} {i : s.Idx} (h : andi x y i = 1#1) : x i = 1#1 ∧ y i = 1#1 :=
  IntOp.andi_eq_one.1 h

/-- The "and" of two one-bit scalars that is 1 at the scalar's index has both conjuncts 1 there. -/
theorem andi_ix0 {x y : IVec S0 1} (h : andi x y ix0 = 1#1) : x ix0 = 1#1 ∧ y ix0 = 1#1 :=
  andi_eq_one_at h

/-- The entrywise "and" of two arrays of one-bit words that is constantly 1 has both arrays constantly 1. -/
theorem andi_eq_one {s : Shape} {x y : IVec s 1} (h : andi x y = fun _ => 1#1) :
    x = (fun _ => 1#1) ∧ y = (fun _ => 1#1) :=
  ⟨funext fun i => (andi_eq_one_at (congrFun h i)).1, funext fun i => (andi_eq_one_at (congrFun h i)).2⟩

/-! ## Comparisons of extended reals, read back -/

/-- A comparison word "x > y" that is 1: x is strictly above y. -/
theorem lt_of_ogt {φ : FTy} {x y : Ideal φ} (h : FloatOps.cmpf .ogt x y = 1#1) : (y : EReal) < x := by
  have h2 : Ideal.cmp .ogt x y = 1#1 := h
  unfold Ideal.cmp at h2
  rw [ofBool_eq_one] at h2
  exact of_decide_eq_true h2

/-- A comparison word "x < y" that is 1: x is strictly below y. -/
theorem lt_of_olt {φ : FTy} {x y : Ideal φ} (h : FloatOps.cmpf .olt x y = 1#1) : (x : EReal) < y := by
  have h2 : Ideal.cmp .olt x y = 1#1 := h
  unfold Ideal.cmp at h2
  rw [ofBool_eq_one] at h2
  exact of_decide_eq_true h2

/-- Two arrays compared entry by entry by "greater than", the word at an index being 1: the inequality there. -/
theorem gt_of_ogt_at {φ : FTy} {s : Shape} (x y : FVec Ideal s φ) (j : s.Idx) (h : cmpf .ogt x y j = 1#1) :
    x j > y j :=
  lt_of_ogt h

/-- The f32 pattern `0x7F800000` denotes +infinity. -/
theorem ofBits_inf_f32 : Ideal.ofBits .f32 0x7F800000#32 = (⊤ : EReal) := by simp [Ideal.ofBits, Ideal.ieee]

/-- The bf16 pattern `0x7F80` denotes +infinity. -/
theorem ofBits_inf_bf16 : Ideal.ofBits .bf16 0x7F80#16 = (⊤ : EReal) := by simp [Ideal.ofBits, Ideal.ieee]

/-- An extended real whose absolute value max x (-x) lies strictly below +infinity is a real. -/
theorem isReal_of_abs_lt_top {x : EReal} (h : max x (-x) < ⊤) : IsReal x := by
  induction x using EReal.rec with
  | bot => simp at h
  | coe r => exact ⟨r, rfl⟩
  | top => simp at h

/-- The comparison word "|x| < b" that is 1, for a pattern b that denotes +infinity: x is a real. -/
theorem isReal_of_abs_lt {φ : FTy} (b : BitVec φ.bits) (hb : Ideal.ofBits φ b = (⊤ : EReal)) (x : Ideal φ)
    (h : FloatOps.cmpf .olt (FloatOps.hostAbsf x) (FloatOps.ofBits (F := Ideal) φ b) = 1#1) : IsReal x := by
  have h2 : (max (x : EReal) (-x)) < Ideal.ofBits φ b := lt_of_olt h
  rw [hb] at h2
  exact isReal_of_abs_lt_top h2

/-- The f32 case: the comparison word "|x| < 0x7F800000" that is 1 says x is a real. -/
theorem isReal_of_abs_lt_f32 (x : Ideal .f32)
    (h : FloatOps.cmpf .olt (FloatOps.hostAbsf x) (FloatOps.ofBits (F := Ideal) .f32 0x7F800000#32) = 1#1) :
    IsReal x :=
  isReal_of_abs_lt _ ofBits_inf_f32 x h

/-! ## Arrays -/

/-- Every entry of an array of extended reals is a real. -/
abbrev AllReal {φ : FTy} {s : Shape} (x : FVec Ideal s φ) : Prop := ∀ i, IsReal (x i)

/-- Every entry of an array (already in absolute value) compares strictly below the scalar pattern b broadcast to
    the array's shape: the array of comparison words is 1 at every index. -/
abbrev LtBcast {φ : FTy} {s : Shape} (b : BitVec φ.bits) (hb : S0.BroadcastsInDim s (![] : Fin 0 → Fin s.rank))
    (x : FVec Ideal s φ) : Prop :=
  ∀ i, cmpf .olt x (broadcastInDim s ![] hb (constant S0 φ b)) i = 1#1

/-- The f32 case with the pattern of +infinity. -/
abbrev AbsLtInf {s : Shape} (hb : S0.BroadcastsInDim s (![] : Fin 0 → Fin s.rank)) (x : FVec Ideal s .f32) : Prop :=
  LtBcast 0x7F800000#32 hb x

/-- An array whose absolute values all compare below a pattern that denotes +infinity has real entries. -/
theorem allReal_of_ltBcast {φ : FTy} {s : Shape} (b : BitVec φ.bits) (htop : Ideal.ofBits φ b = (⊤ : EReal))
    (x : FVec Ideal s φ) (hb : S0.BroadcastsInDim s (![] : Fin 0 → Fin s.rank)) (h : LtBcast b hb (Host.absf x)) :
    AllReal x :=
  fun i => isReal_of_abs_lt b htop (x i) (h i)

/-- The f32 case: an array whose absolute values all compare below +infinity has real entries. -/
theorem allReal_of_abs {s : Shape} (x : FVec Ideal s .f32) (hb : S0.BroadcastsInDim s (![] : Fin 0 → Fin s.rank))
    (h : AbsLtInf hb (Host.absf x)) : AllReal x :=
  allReal_of_ltBcast _ ofBits_inf_f32 x hb h

/-! ## The reduction by "and" -/

/-- A reduction by "and" over all axes that is 1 at the scalar's index: every entry of the reduced array is 1. -/
theorem all_of_reduce {s u : Shape} {axes : List (Fin s.rank)} (p : IVec s 1) (init : IVec u 1) (hr : s.ReducesTo axes S0)
    (hu : 0 < u.numel) (e : Host.reduce IntOp.andi p init hr hu ix0 = 1#1) (i : s.Idx) : p i = 1#1 :=
  Host.reduce_andi_all p init hr hu ix0 e i

/-- The same when the reduction is said to be the constant function 1. -/
theorem all_of_reduce_eq {s u : Shape} {axes : List (Fin s.rank)} (p : IVec s 1) (init : IVec u 1)
    (hr : s.ReducesTo axes S0) (hu : 0 < u.numel) (e : Host.reduce IntOp.andi p init hr hu = fun _ => 1#1) (i : s.Idx) :
    p i = 1#1 :=
  all_of_reduce p init hr hu (congrFun e ix0) i

/-- "All |x i| < b" came out 1, for a pattern b that denotes +infinity: every entry of x is a real. -/
theorem allReal_of_all {φ : FTy} {s u : Shape} {axes : List (Fin s.rank)} (b : BitVec φ.bits)
    (htop : Ideal.ofBits φ b = (⊤ : EReal)) (x : FVec Ideal s φ) (hb : S0.BroadcastsInDim s (![] : Fin 0 → Fin s.rank))
    (init : IVec u 1) (hr : s.ReducesTo axes S0) (hu : 0 < u.numel)
    (e : Host.reduce IntOp.andi (cmpf .olt (Host.absf x) (broadcastInDim s ![] hb (constant S0 φ b))) init hr hu ix0
      = 1#1) : AllReal x :=
  allReal_of_ltBcast b htop x hb (all_of_reduce _ _ hr hu e)

/-- The f32 case, the reduction started from the word 1, 1 at the scalar's index: every entry of x is a real. -/
theorem finite_of_all {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi (cmpf .olt (Host.absf x) (broadcastInDim s ![] hb (constant S0 .f32 0x7F800000#32)))
      (constantI S0 1 1#1) hr hu ix0 = 1#1) : AllReal x :=
  allReal_of_all _ ofBits_inf_f32 x hb _ hr hu e

/-- The same when the reduction is said to be the constant function 1. -/
theorem finite_of_all_eq {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi (cmpf .olt (Host.absf x) (broadcastInDim s ![] hb (constant S0 .f32 0x7F800000#32)))
      (constantI S0 1 1#1) hr hu = fun _ => 1#1) : AllReal x :=
  finite_of_all x hb hr hu (congrFun e ix0)

/-- "All x j > y j" came out 1 at the scalar's index: x lies strictly above y at every index. -/
theorem gt_of_all {φ : FTy} {s u : Shape} {axes : List (Fin s.rank)} (x y : FVec Ideal s φ) (init : IVec u 1)
    (hr : s.ReducesTo axes S0) (hu : 0 < u.numel)
    (e : Host.reduce IntOp.andi (cmpf .ogt x y) init hr hu ix0 = 1#1) (j : s.Idx) : x j > y j :=
  gt_of_ogt_at x y j (all_of_reduce _ _ hr hu e j)

/-- The same when the reduction is said to be the constant function 1. -/
theorem gt_of_all_eq {φ : FTy} {s u : Shape} {axes : List (Fin s.rank)} (x y : FVec Ideal s φ) (init : IVec u 1)
    (hr : s.ReducesTo axes S0) (hu : 0 < u.numel)
    (e : Host.reduce IntOp.andi (cmpf .ogt x y) init hr hu = fun _ => 1#1) (j : s.Idx) : x j > y j :=
  gt_of_all x y init hr hu (congrFun e ix0) j

end Cert.PreDecodeLib

end
-- ==== Proof.FiniteInput.lean ====
/-
  Finiteness of the image batch, read off the precondition.

  The precondition is a one-bit scalar: for each of the sixteen arguments, the "and" over all entries of the
  comparison words "|x| < +infinity", and these sixteen scalars joined by "and" from left to right. A
  conjunction of one-bit words is 1 exactly when every conjunct is, so when the whole scalar is 1 the first
  conjunct, which sits innermost on the left of fifteen "and"s, is 1. That conjunct is the one about the image
  batch: a reduction by "and" that came out 1 met only 1s, and the word "|x| < +infinity" being 1 says x is the
  image of a real number, hence neither infinity.

  The function is given as a chain of bindings cut into five pieces, each ending in the call of the next; one
  lemma per piece takes the left components of that piece's "and"s, from the last piece back to the first.
-/
import proofs.«118059_j54013508715380_2_alg».proof.Pre_finite_inputs
import proofs.«118059_j54013508715380_2_alg».proof.Proof.LibPreDecode

noncomputable section

namespace Cert.FiniteInput

open Idealize.ShloMosaic Idealize.ShloMosaic.ValueIdx
open Cert.Pre_finite_inputs Cert.PreDecodeLib Cert.Finite

/-- The last piece is ((v63 and v67) and c14) and c15: when it is 1, so is v63. -/
theorem part4_left [Cert.Pre_finite_inputs.Facts] (a14 : FVec Ideal S10 .f32) (a15 : FVec Ideal S_ .f32) (v63 v67 : IVec S_ 1)
    (h : fn_part4 (F := Ideal) a14 a15 v63 v67 = fun _ => 1#1) : v63 = fun _ => 1#1 := by
  unfold fn_part4 at h
  dsimp only at h
  exact (andi_eq_one (andi_eq_one (andi_eq_one h).1).1).1

/-- The fourth piece hands (((v48 and c10) and c11) and c12) to the last one: when it is 1, so is v48. -/
theorem part3_left [Cert.Pre_finite_inputs.Facts] (a11 a12 : FVec Ideal S2048 .f32) (a13 : FVec Ideal S10x2048 .f32) (a14 : FVec Ideal S10 .f32)
    (a15 : FVec Ideal S_ .f32) (v48 : IVec S_ 1) (v49 v50 : FVec Ideal S2048 .f32)
    (h : fn_part3 (F := Ideal) a11 a12 a13 a14 a15 v48 v49 v50 = fun _ => 1#1) : v48 = fun _ => 1#1 := by
  unfold fn_part3 at h
  dsimp only at h
  exact (andi_eq_one (andi_eq_one (andi_eq_one (part4_left _ _ _ _ h)).1).1).1

/-- The third piece hands (((v33 and c7) and c8) and c9) to the fourth: when it is 1, so is v33. -/
theorem part2_left [Cert.Pre_finite_inputs.Facts] (a7 : FVec Ideal S2048x2048 .f32) (a8 a9 a10 a11 a12 : FVec Ideal S2048 .f32)
    (a13 : FVec Ideal S10x2048 .f32) (a14 : FVec Ideal S10 .f32) (a15 : FVec Ideal S_ .f32) (v33 : IVec S_ 1)
    (h : fn_part2 (F := Ideal) a7 a8 a9 a10 a11 a12 a13 a14 a15 v33 = fun _ => 1#1) : v33 = fun _ => 1#1 := by
  unfold fn_part2 at h
  dsimp only at h
  exact (andi_eq_one (andi_eq_one (andi_eq_one (part3_left _ _ _ _ _ _ _ _ h)).1).1).1

/-- The second piece hands ((((v13 and c3) and c4) and c5) and c6) to the third: when it is 1, so is v13. -/
theorem part1_left [Cert.Pre_finite_inputs.Facts] (a4 a5 a6 : FVec Ideal S2048 .f32) (a7 : FVec Ideal S2048x2048 .f32)
    (a8 a9 a10 a11 a12 : FVec Ideal S2048 .f32) (a13 : FVec Ideal S10x2048 .f32) (a14 : FVec Ideal S10 .f32)
    (a15 : FVec Ideal S_ .f32) (v13 : IVec S_ 1) (v16 : IVec S2048 1)
    (h : fn_part1 (F := Ideal) a4 a5 a6 a7 a8 a9 a10 a11 a12 a13 a14 a15 v13 v16 = fun _ => 1#1) :
    v13 = fun _ => 1#1 := by
  unfold fn_part1 at h
  dsimp only at h
  exact (andi_eq_one (andi_eq_one (andi_eq_one (andi_eq_one
    (part2_left _ _ _ _ _ _ _ _ _ _ h)).1).1).1).1

/-- When the precondition holds of sixteen arguments, every entry of the first one, the image batch, is finite:
    neither +infinity nor -infinity. -/
theorem arg0_finite [Cert.Pre_finite_inputs.Facts] (a0 : FVec Ideal Cert.Pre_finite_inputs.S16384x1x28x28 .f32) (a1 : FVec Ideal Cert.Pre_finite_inputs.S2048x784 .f32) (a2 a3 a4 a5 a6 : FVec Ideal Cert.Pre_finite_inputs.S2048 .f32) (a7 : FVec Ideal Cert.Pre_finite_inputs.S2048x2048 .f32) (a8 a9 a10 a11 a12 : FVec Ideal Cert.Pre_finite_inputs.S2048 .f32) (a13 : FVec Ideal Cert.Pre_finite_inputs.S10x2048 .f32) (a14 : FVec Ideal Cert.Pre_finite_inputs.S10 .f32) (a15 : FVec Ideal Cert.Pre_finite_inputs.S_ .f32)
    (h : Cert.Pre_finite_inputs.fn (F := Ideal) a0 a1 a2 a3 a4 a5 a6 a7 a8 a9 a10 a11 a12 a13 a14 a15 = fun _ => 1#1) :
    ∀ j, a0 j ≠ ⊤ ∧ a0 j ≠ ⊥ := by
  unfold Cert.Pre_finite_inputs.fn at h
  dsimp only at h
  -- the first piece hands ((c0 and c1) and c2) to the second; c0 is the conjunct about the image batch
  have h0 := (andi_eq_one (andi_eq_one (part1_left _ _ _ _ _ _ _ _ _ _ _ _ _ _ h)).1).1
  have hreal : AllReal a0 := finite_of_all_eq a0 _ _ _ h0
  exact fun j => ⟨(hreal j).ne_top, (hreal j).ne_bot⟩

end Cert.FiniteInput

end
-- ==== Proof.Payload.lean ====
/-
  The kernel's body at one entry of its block.

  At a grid point the body holds a block of 1024 image rows `x0` [1024,784], the three binarized, transposed weight
  matrices `x1` [784,2048], `x5` [2048,2048], `x9` [2048,10], and per layer a bias row, a batch-norm scale row and a
  shift row (`x2 x3 x4`, `x6 x7 x8`), the output bias row `x10` and the scale `x11`. Each matrix product, read at an
  entry (p, j), is the dot product of row p of the left factor with column j of the right one; a row [1,n] broadcast
  over the block's rows reads its entry j; the sign test, the bias and the batch-norm act entry by entry. So entry
  (p, q) of what the body stores is the output unit q of the network run on row p of the block, in the kernel's form
  (first layer with its residual pass, no hardtanh).
-/
import proofs.«118059_j54013508715380_2_alg».proof.Proof.Gen.KernelIdeal.Frame
import proofs.«118059_j54013508715380_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Payload

open Idealize.ShloMosaic Idealize.ShloMosaic.ValueIdx Cert.KernelIdeal Cert.KernelIdeal.Gen Cert.Bnn

/-! ## The three matrix products at an entry -/

theorem mm1_l0 (j : S1024x2048.Idx) (k : dot_S1024x784_S784x2048_S1024x2048_1_0_0_1_n_n.contr.Idx) : (dot_S1024x784_S784x2048_S1024x2048_1_0_0_1_n_n.lhsIdx j k 0).val = (j 0).val := by
  unfold DotDims.lhsIdx
  rw [dif_neg (show ¬(0 : Fin S1024x784.rank) ∈ dot_S1024x784_S784x2048_S1024x2048_1_0_0_1_n_n.lhsBatch by decide), dif_pos (show (0 : Fin S1024x784.rank) ∈ dot_S1024x784_S784x2048_S1024x2048_1_0_0_1_n_n.lhsNonContracting by decide)]
  rfl
theorem mm1_l1 (j : S1024x2048.Idx) (k : dot_S1024x784_S784x2048_S1024x2048_1_0_0_1_n_n.contr.Idx) : (dot_S1024x784_S784x2048_S1024x2048_1_0_0_1_n_n.lhsIdx j k 1).val = (k ⟨0, by decide⟩).val :=
  dot_S1024x784_S784x2048_S1024x2048_1_0_0_1_n_n.lhsIdx_val_of_single rfl j k
theorem mm1_r0 (j : S1024x2048.Idx) (k : dot_S1024x784_S784x2048_S1024x2048_1_0_0_1_n_n.contr.Idx) : (dot_S1024x784_S784x2048_S1024x2048_1_0_0_1_n_n.rhsIdx j k 0).val = (k ⟨0, by decide⟩).val :=
  dot_S1024x784_S784x2048_S1024x2048_1_0_0_1_n_n.rhsIdx_val_of_single rfl j k
theorem mm1_r1 (j : S1024x2048.Idx) (k : dot_S1024x784_S784x2048_S1024x2048_1_0_0_1_n_n.contr.Idx) : (dot_S1024x784_S784x2048_S1024x2048_1_0_0_1_n_n.rhsIdx j k 1).val = (j 1).val := by
  unfold DotDims.rhsIdx
  rw [dif_neg (show ¬(1 : Fin S784x2048.rank) ∈ dot_S1024x784_S784x2048_S1024x2048_1_0_0_1_n_n.rhsBatch by decide), dif_pos (show (1 : Fin S784x2048.rank) ∈ dot_S1024x784_S784x2048_S1024x2048_1_0_0_1_n_n.rhsNonContracting by decide)]
  rfl

/-- The first layer's product (either pass) at entry (p, j): row p of the left factor against column j of the weights. -/
theorem mm1_apply {φ₁ φ₂ : FTy} (l : FVec Ideal S1024x784 φ₁) (r : FVec Ideal S784x2048 φ₂) (p : Fin 1024) (j : Fin 2048) :
    matmul dot_S1024x784_S784x2048_S1024x2048_1_0_0_1_n_n none l r (constant (F := Ideal) S1024x2048 .f32 0x00000000#32) (ix2 p j)
      = dot (fun i : Fin 784 => l (ix2 p i)) (fun i => r (ix2 i j)) := by
  simp only [matmul]
  rw [Ideal.matmul_constant_zero_apply, ← Equiv.sum_comp (contrEquiv1 dot_S1024x784_S784x2048_S1024x2048_1_0_0_1_n_n 784 rfl rfl).symm]
  unfold dot
  refine Finset.sum_congr rfl fun k _ => ?_
  have hk := contrEquiv1_symm_val dot_S1024x784_S784x2048_S1024x2048_1_0_0_1_n_n 784 rfl rfl k
  have el : dot_S1024x784_S784x2048_S1024x2048_1_0_0_1_n_n.lhsIdx (ix2 p j) ((contrEquiv1 dot_S1024x784_S784x2048_S1024x2048_1_0_0_1_n_n 784 rfl rfl).symm k) = ix2 p k := funext fun a => Fin.ext (by
    match a with
    | ⟨0, _⟩ => exact mm1_l0 _ _
    | ⟨1, _⟩ => exact (mm1_l1 _ _).trans hk)
  have er : dot_S1024x784_S784x2048_S1024x2048_1_0_0_1_n_n.rhsIdx (ix2 p j) ((contrEquiv1 dot_S1024x784_S784x2048_S1024x2048_1_0_0_1_n_n 784 rfl rfl).symm k) = ix2 k j := funext fun a => Fin.ext (by
    match a with
    | ⟨0, _⟩ => exact (mm1_r0 _ _).trans hk
    | ⟨1, _⟩ => exact mm1_r1 _ _)
  rw [el, er]

theorem mm2_l0 (j : S1024x2048.Idx) (k : dot_S1024x2048_S2048x2048_S1024x2048_1_0_0_1_n_n.contr.Idx) : (dot_S1024x2048_S2048x2048_S1024x2048_1_0_0_1_n_n.lhsIdx j k 0).val = (j 0).val := by
  unfold DotDims.lhsIdx
  rw [dif_neg (show ¬(0 : Fin S1024x2048.rank) ∈ dot_S1024x2048_S2048x2048_S1024x2048_1_0_0_1_n_n.lhsBatch by decide), dif_pos (show (0 : Fin S1024x2048.rank) ∈ dot_S1024x2048_S2048x2048_S1024x2048_1_0_0_1_n_n.lhsNonContracting by decide)]
  rfl
theorem mm2_l1 (j : S1024x2048.Idx) (k : dot_S1024x2048_S2048x2048_S1024x2048_1_0_0_1_n_n.contr.Idx) : (dot_S1024x2048_S2048x2048_S1024x2048_1_0_0_1_n_n.lhsIdx j k 1).val = (k ⟨0, by decide⟩).val :=
  dot_S1024x2048_S2048x2048_S1024x2048_1_0_0_1_n_n.lhsIdx_val_of_single rfl j k
theorem mm2_r0 (j : S1024x2048.Idx) (k : dot_S1024x2048_S2048x2048_S1024x2048_1_0_0_1_n_n.contr.Idx) : (dot_S1024x2048_S2048x2048_S1024x2048_1_0_0_1_n_n.rhsIdx j k 0).val = (k ⟨0, by decide⟩).val :=
  dot_S1024x2048_S2048x2048_S1024x2048_1_0_0_1_n_n.rhsIdx_val_of_single rfl j k
theorem mm2_r1 (j : S1024x2048.Idx) (k : dot_S1024x2048_S2048x2048_S1024x2048_1_0_0_1_n_n.contr.Idx) : (dot_S1024x2048_S2048x2048_S1024x2048_1_0_0_1_n_n.rhsIdx j k 1).val = (j 1).val := by
  unfold DotDims.rhsIdx
  rw [dif_neg (show ¬(1 : Fin S2048x2048.rank) ∈ dot_S1024x2048_S2048x2048_S1024x2048_1_0_0_1_n_n.rhsBatch by decide), dif_pos (show (1 : Fin S2048x2048.rank) ∈ dot_S1024x2048_S2048x2048_S1024x2048_1_0_0_1_n_n.rhsNonContracting by decide)]
  rfl

/-- The second layer's product at entry (p, k). -/
theorem mm2_apply {φ₁ φ₂ : FTy} (l : FVec Ideal S1024x2048 φ₁) (r : FVec Ideal S2048x2048 φ₂) (p : Fin 1024) (j : Fin 2048) :
    matmul dot_S1024x2048_S2048x2048_S1024x2048_1_0_0_1_n_n none l r (constant (F := Ideal) S1024x2048 .f32 0x00000000#32) (ix2 p j)
      = dot (fun i : Fin 2048 => l (ix2 p i)) (fun i => r (ix2 i j)) := by
  simp only [matmul]
  rw [Ideal.matmul_constant_zero_apply, ← Equiv.sum_comp (contrEquiv1 dot_S1024x2048_S2048x2048_S1024x2048_1_0_0_1_n_n 2048 rfl rfl).symm]
  unfold dot
  refine Finset.sum_congr rfl fun k _ => ?_
  have hk := contrEquiv1_symm_val dot_S1024x2048_S2048x2048_S1024x2048_1_0_0_1_n_n 2048 rfl rfl k
  have el : dot_S1024x2048_S2048x2048_S1024x2048_1_0_0_1_n_n.lhsIdx (ix2 p j) ((contrEquiv1 dot_S1024x2048_S2048x2048_S1024x2048_1_0_0_1_n_n 2048 rfl rfl).symm k) = ix2 p k := funext fun a => Fin.ext (by
    match a with
    | ⟨0, _⟩ => exact mm2_l0 _ _
    | ⟨1, _⟩ => exact (mm2_l1 _ _).trans hk)
  have er : dot_S1024x2048_S2048x2048_S1024x2048_1_0_0_1_n_n.rhsIdx (ix2 p j) ((contrEquiv1 dot_S1024x2048_S2048x2048_S1024x2048_1_0_0_1_n_n 2048 rfl rfl).symm k) = ix2 k j := funext fun a => Fin.ext (by
    match a with
    | ⟨0, _⟩ => exact (mm2_r0 _ _).trans hk
    | ⟨1, _⟩ => exact mm2_r1 _ _)
  rw [el, er]

theorem mm3_l0 (j : S1024x10.Idx) (k : dot_S1024x2048_S2048x10_S1024x10_1_0_0_1_n_n.contr.Idx) : (dot_S1024x2048_S2048x10_S1024x10_1_0_0_1_n_n.lhsIdx j k 0).val = (j 0).val := by
  unfold DotDims.lhsIdx
  rw [dif_neg (show ¬(0 : Fin S1024x2048.rank) ∈ dot_S1024x2048_S2048x10_S1024x10_1_0_0_1_n_n.lhsBatch by decide), dif_pos (show (0 : Fin S1024x2048.rank) ∈ dot_S1024x2048_S2048x10_S1024x10_1_0_0_1_n_n.lhsNonContracting by decide)]
  rfl
theorem mm3_l1 (j : S1024x10.Idx) (k : dot_S1024x2048_S2048x10_S1024x10_1_0_0_1_n_n.contr.Idx) : (dot_S1024x2048_S2048x10_S1024x10_1_0_0_1_n_n.lhsIdx j k 1).val = (k ⟨0, by decide⟩).val :=
  dot_S1024x2048_S2048x10_S1024x10_1_0_0_1_n_n.lhsIdx_val_of_single rfl j k
theorem mm3_r0 (j : S1024x10.Idx) (k : dot_S1024x2048_S2048x10_S1024x10_1_0_0_1_n_n.contr.Idx) : (dot_S1024x2048_S2048x10_S1024x10_1_0_0_1_n_n.rhsIdx j k 0).val = (k ⟨0, by decide⟩).val :=
  dot_S1024x2048_S2048x10_S1024x10_1_0_0_1_n_n.rhsIdx_val_of_single rfl j k
theorem mm3_r1 (j : S1024x10.Idx) (k : dot_S1024x2048_S2048x10_S1024x10_1_0_0_1_n_n.contr.Idx) : (dot_S1024x2048_S2048x10_S1024x10_1_0_0_1_n_n.rhsIdx j k 1).val = (j 1).val := by
  unfold DotDims.rhsIdx
  rw [dif_neg (show ¬(1 : Fin S2048x10.rank) ∈ dot_S1024x2048_S2048x10_S1024x10_1_0_0_1_n_n.rhsBatch by decide), dif_pos (show (1 : Fin S2048x10.rank) ∈ dot_S1024x2048_S2048x10_S1024x10_1_0_0_1_n_n.rhsNonContracting by decide)]
  rfl

/-- The output layer's product at entry (p, q). -/
theorem mm3_apply {φ₁ φ₂ : FTy} (l : FVec Ideal S1024x2048 φ₁) (r : FVec Ideal S2048x10 φ₂) (p : Fin 1024) (j : Fin 10) :
    matmul dot_S1024x2048_S2048x10_S1024x10_1_0_0_1_n_n none l r (constant (F := Ideal) S1024x10 .f32 0x00000000#32) (ix2 p j)
      = dot (fun i : Fin 2048 => l (ix2 p i)) (fun i => r (ix2 i j)) := by
  simp only [matmul]
  rw [Ideal.matmul_constant_zero_apply, ← Equiv.sum_comp (contrEquiv1 dot_S1024x2048_S2048x10_S1024x10_1_0_0_1_n_n 2048 rfl rfl).symm]
  unfold dot
  refine Finset.sum_congr rfl fun k _ => ?_
  have hk := contrEquiv1_symm_val dot_S1024x2048_S2048x10_S1024x10_1_0_0_1_n_n 2048 rfl rfl k
  have el : dot_S1024x2048_S2048x10_S1024x10_1_0_0_1_n_n.lhsIdx (ix2 p j) ((contrEquiv1 dot_S1024x2048_S2048x10_S1024x10_1_0_0_1_n_n 2048 rfl rfl).symm k) = ix2 p k := funext fun a => Fin.ext (by
    match a with
    | ⟨0, _⟩ => exact mm3_l0 _ _
    | ⟨1, _⟩ => exact (mm3_l1 _ _).trans hk)
  have er : dot_S1024x2048_S2048x10_S1024x10_1_0_0_1_n_n.rhsIdx (ix2 p j) ((contrEquiv1 dot_S1024x2048_S2048x10_S1024x10_1_0_0_1_n_n 2048 rfl rfl).symm k) = ix2 k j := funext fun a => Fin.ext (by
    match a with
    | ⟨0, _⟩ => exact (mm3_r0 _ _).trans hk
    | ⟨1, _⟩ => exact mm3_r1 _ _)
  rw [el, er]

/-! ## The body's payloads at an entry -/

theorem hz : (![0, 0] : Fin 2 → Nat) = fun _ => 0 := funext fun a => by fin_cases a <;> rfl

/-- The sign test entry by entry: `1` where `0 ≤ h`, `-1` elsewhere, whatever format the result is kept in. -/
theorem sgn_apply {s : Shape} (h : FVec Ideal s .f32) (i : s.Idx) :
    (truncf .bf16 (select (cmpf .oge h (broadcast s (Scalar.ofBits (F := Ideal) .f32 0x00000000#32)))
        (broadcast s (Scalar.ofBits (F := Ideal) .f32 0x3F800000#32)) (broadcast s (Scalar.ofBits (F := Ideal) .f32 0xBF800000#32)))
      bitsLt_bf16_f32 : FVec Ideal s .bf16) i = sg (h i) := rfl

/-- The second layer's bias row over the block's rows. -/
theorem pay3_apply (x6 : Vec Ideal S1x2048 .f32) (p : Fin 1024) (k : Fin 2048) :
    k0_pay3 x6 (ix2 p k) = x6 (ix2 (0 : Fin 1) k) := by
  unfold k0_pay3
  rw [shapeCast_self]
  exact broadcastTo_1b_ab_apply x6 _ p k

/-- The first layer's pre-activation at entry (p, j): both passes, the bias, the batch-norm. -/
theorem pre1_apply (x0 : FVec Ideal S1024x784 .f32) (x1 : FVec Ideal S784x2048 .bf16) (x2 x3 x4 : FVec Ideal S1x2048 .f32)
    (p : Fin 1024) (j : Fin 2048) :
    addf (mulf (addf (addf
        (matmul dot_S1024x784_S784x2048_S1024x2048_1_0_0_1_n_n none (truncf .bf16 x0 bitsLt_bf16_f32) x1 (constant (F := Ideal) S1024x2048 .f32 0x00000000#32))
        (matmul dot_S1024x784_S784x2048_S1024x2048_1_0_0_1_n_n none (truncf .bf16 (subf x0 x0) bitsLt_bf16_f32) x1 (constant (F := Ideal) S1024x2048 .f32 0x00000000#32)))
        (broadcastTo S1024x2048 x2 broadcasts_S1x2048_S1024x2048))
        (broadcastTo S1024x2048 x3 broadcasts_S1x2048_S1024x2048))
        (broadcastTo S1024x2048 x4 broadcasts_S1x2048_S1024x2048) (ix2 p j)
      = aff (dot (fun i : Fin 784 => x0 (ix2 p i)) (fun i => x1 (ix2 i j)) + dot (fun i : Fin 784 => x0 (ix2 p i) - x0 (ix2 p i)) (fun i => x1 (ix2 i j)))
          (x2 (ix2 (0 : Fin 1) j)) (x3 (ix2 (0 : Fin 1) j)) (x4 (ix2 (0 : Fin 1) j)) := by
  rw [addf_apply, mulf_apply, addf_apply, addf_apply, mm1_apply, mm1_apply,
    broadcastTo_1b_ab_apply x2 _ p j, broadcastTo_1b_ab_apply x3 _ p j, broadcastTo_1b_ab_apply x4 _ p j]
  rfl

/-- The second layer's product at entry (p, k), over the first layer's activations of row p. -/
theorem pay2_apply (x0 : Vec Ideal S1024x784 .f32) (x1 : Vec Ideal S784x2048 .bf16) (x2 x3 x4 : Vec Ideal S1x2048 .f32)
    (x5 : Vec Ideal S2048x2048 .bf16) (p : Fin 1024) (k : Fin 2048) :
    k0_pay2 x0 x1 x1 x2 x3 x4 x5 (ix2 p k)
      = dot (fun j : Fin 2048 => actK1 (fun i : Fin 784 => x0 (ix2 p i)) (fun i => x1 (ix2 i j))
            (x2 (ix2 (0 : Fin 1) j)) (x3 (ix2 (0 : Fin 1) j)) (x4 (ix2 (0 : Fin 1) j)))
          (fun j => x5 (ix2 j k)) := by
  unfold k0_pay2
  rw [shapeCast_self, shapeCast_self, shapeCast_self, shapeCast_self, shapeCast_self, shapeCast_self]
  refine (mm2_apply _ _ p k).trans ?_
  unfold dot
  refine Finset.sum_congr rfl fun j _ => congrArg (· * x5 (ix2 j k)) ?_
  refine (sgn_apply _ (ix2 p j)).trans ?_
  unfold actK1
  exact congrArg sg (pre1_apply x0 x1 x2 x3 x4 p j)

/-- The scale, a [1,1] array broadcast over the block, reads its one entry everywhere. -/
theorem scale_apply (x11 : FVec Ideal S1x1 .f32) (p : Fin 1024) (q : Fin 10) :
    broadcastTo S1024x10 x11 broadcasts_S1x1_S1024x10 (ix2 p q) = x11 (ix2 (0 : Fin 1) (0 : Fin 1)) :=
  broadcastTo_apply x11 _ (ix2 p q) (ix2 (0 : Fin 1) (0 : Fin 1)) fun a => by
    match a with
    | ⟨0, _⟩ => rfl
    | ⟨1, _⟩ => rfl

/-- The second layer's pre-activation at entry (p, k) from its product and bias row. -/
theorem pre2_apply (v33 v36 : FVec Ideal S1024x2048 .f32) (x7 x8 : FVec Ideal S1x2048 .f32) (p : Fin 1024) (k : Fin 2048) :
    addf (mulf (addf v33 v36) (broadcastTo S1024x2048 x7 broadcasts_S1x2048_S1024x2048))
        (broadcastTo S1024x2048 x8 broadcasts_S1x2048_S1024x2048) (ix2 p k)
      = aff (v33 (ix2 p k)) (v36 (ix2 p k)) (x7 (ix2 (0 : Fin 1) k)) (x8 (ix2 (0 : Fin 1) k)) := by
  rw [addf_apply, mulf_apply, addf_apply, broadcastTo_1b_ab_apply x7 _ p k, broadcastTo_1b_ab_apply x8 _ p k]
  rfl

/-- What the body stores at entry (p, q), from the second layer's product `v33` and bias rows `v36`. -/
theorem pay1_apply (v33 v36 : FVec Ideal S1024x2048 .f32) (x7 x8 : Vec Ideal S1x2048 .f32) (x9 : Vec Ideal S2048x10 .bf16)
    (x10 : Vec Ideal S1x10 .f32) (x11 : Vec Ideal S1x1 .f32) (p : Fin 1024) (q : Fin 10) :
    k0_pay1 v33 v36 x7 x8 x9 x10 x11 (ix2 p q)
      = outU (fun k : Fin 2048 => sg (aff (v33 (ix2 p k)) (v36 (ix2 p k)) (x7 (ix2 (0 : Fin 1) k)) (x8 (ix2 (0 : Fin 1) k))))
          (fun k => x9 (ix2 k q)) (x10 (ix2 (0 : Fin 1) q)) (x11 (ix2 (0 : Fin 1) (0 : Fin 1))) := by
  unfold k0_pay1
  rw [shapeCast_self, shapeCast_self, shapeCast_self, shapeCast_self, shapeCast_self]
  rw [mulf_apply, addf_apply, mm3_apply, broadcastTo_1b_ab_apply x10 _ p q, scale_apply x11 p q]
  unfold outU dot
  refine congrArg (fun s : EReal => (s + x10 (ix2 (0 : Fin 1) q)) * x11 (ix2 (0 : Fin 1) (0 : Fin 1))) ?_
  refine Finset.sum_congr rfl fun k _ => congrArg (· * x9 (ix2 k q)) ?_
  refine (sgn_apply _ (ix2 p k)).trans ?_
  exact congrArg sg (pre2_apply v33 v36 x7 x8 p k)

/-! ## The block the body leaves, at an entry -/

/-- Entry (p, q) of the output block is output unit q of the network on row p of the image block, in the kernel's form. -/
theorem out_apply (x0 : Vec Ideal S1024x784 .f32) (x1 : Vec Ideal S784x2048 .bf16) (x2 x3 x4 : Vec Ideal S1x2048 .f32)
    (x5 : Vec Ideal S2048x2048 .bf16) (x6 x7 x8 : Vec Ideal S1x2048 .f32) (x9 : Vec Ideal S2048x10 .bf16)
    (x10 : Vec Ideal S1x10 .f32) (x11 : Vec Ideal S1x1 .f32) (p : Fin 1024) (q : Fin 10) :
    out0_12 x0 x1 x2 x3 x4 x5 x6 x7 x8 x9 x10 x11 (ix2 p q)
      = outU (fun k : Fin 2048 => actK (fun j : Fin 2048 => actK1 (fun i : Fin 784 => x0 (ix2 p i)) (fun i => x1 (ix2 i j))
              (x2 (ix2 (0 : Fin 1) j)) (x3 (ix2 (0 : Fin 1) j)) (x4 (ix2 (0 : Fin 1) j)))
            (fun j => x5 (ix2 j k)) (x6 (ix2 (0 : Fin 1) k)) (x7 (ix2 (0 : Fin 1) k)) (x8 (ix2 (0 : Fin 1) k)))
          (fun k => x9 (ix2 k q)) (x10 (ix2 (0 : Fin 1) q)) (x11 (ix2 (0 : Fin 1) (0 : Fin 1))) := by
  unfold out0_12
  rw [View.canon_unit_zero hz]
  simp only [View.ld_unit_zero (S := S1024x784) hz, View.ld_unit_zero (S := S784x2048) hz, View.ld_unit_zero (S := S1x2048) hz,
    View.ld_unit_zero (S := S2048x2048) hz, View.ld_unit_zero (S := S2048x10) hz, View.ld_unit_zero (S := S1x10) hz,
    View.ld_unit_zero (S := S1x1) hz]
  refine (pay1_apply _ _ x7 x8 x9 x10 x11 p q).trans ?_
  refine congrArg (fun a : Fin 2048 → EReal => outU a (fun k => x9 (ix2 k q)) (x10 (ix2 (0 : Fin 1) q)) (x11 (ix2 (0 : Fin 1) (0 : Fin 1)))) (funext fun k => ?_)
  unfold actK
  rw [pay2_apply, pay3_apply]

end Cert.KernelIdeal.Payload

end
-- ==== Proof.HostVal.lean ====
/-
  What each array the kernel's one region reads holds when the region starts, read at an index.

  Before the region the program runs a line of host operations over the sixteen launch arguments: the image batch is
  flattened to one row per image; each weight matrix is binarized by a sign test (`select (w ≥ 0) 1 (-1)`), transposed
  and narrowed (the identity on exact values); each batch-norm's scale `γ · (var + ε)^(-1/2)` and shift
  `β − mean · scale` are computed once; and every vector is viewed as a one-row matrix. Each array is first written as
  the composed term of those operations over the arguments, then read at an index: a transpose swaps the two
  coordinates, a view keeps the row-major position, a broadcast scalar reads the scalar, and everything else is
  entry by entry.
-/
import proofs.«118059_j54013508715380_2_alg».proof.Proof.Gen.KernelIdeal.Frame
import proofs.«118059_j54013508715380_2_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

namespace Cert.KernelIdeal.HostVal

open Idealize.ShloMosaic Idealize.ShloMosaic.ValueIdx Idealize.ShloMosaic.TcCoe Idealize.SL.Sem
open Cert.KernelIdeal Cert.KernelIdeal.Gen Cert.Bnn

variable (m : (ℓ : Loc nD τ sig) → Buf (Elt Ideal) ℓ) (c : Dev nD)

/-! ## Pure reads

What the host operations' composed terms hold at an index, over arbitrary argument arrays. -/

/-- A rank-0 constant broadcast to any shape reads the constant's value at every index. -/
theorem bcast0_apply {t : Shape} (h : S_.BroadcastsInDim t (![] : Fin 0 → Fin t.rank)) (b : BitVec 32) (j : t.Idx) :
    broadcastInDim t (![] : Fin 0 → Fin t.rank) h (constant (F := Ideal) S_ .f32 b) j = Ideal.ofBits .f32 b :=
  broadcastInDim_apply (![] : Fin 0 → Fin t.rank) h (constant (F := Ideal) S_ .f32 b) j ix0 (fun a => a.elim0)

/-- The host's binarization `select (w ≥ 0) 1 (-1)` at an index is the sign test of the entry. -/
theorem sgn_apply {s : Shape} (h : S_.BroadcastsInDim s (![] : Fin 0 → Fin s.rank)) (w : FVec Ideal s .f32) (i : s.Idx) :
    select (cmpf .oge w (broadcastInDim s (![] : Fin 0 → Fin s.rank) h (constant (F := Ideal) S_ .f32 0x00000000#32)))
      (broadcastInDim s (![] : Fin 0 → Fin s.rank) h (constant (F := Ideal) S_ .f32 0x3F800000#32))
      (broadcastInDim s (![] : Fin 0 → Fin s.rank) h (constant (F := Ideal) S_ .f32 0xBF800000#32)) i = sg (w i) := by
  rw [select_apply, cmpf_apply, bcast0_apply, bcast0_apply, bcast0_apply, Ideal.cmpf_def]
  rfl

/-- A vector viewed as a one-row matrix reads its entry. -/
theorem row_apply {n : ℕ} (x : (⟨1, ![n]⟩ : Shape).Idx → EReal) (h : (⟨1, ![n]⟩ : Shape).ShapeCasts ⟨2, ![1, n]⟩) (j : Fin n) :
    shapeCast (⟨2, ![1, n]⟩ : Shape) x h (ix2 (0 : Fin 1) j) = x (ix1 j) := by
  refine shapeCast_apply x h (ix2 (0 : Fin 1) j) (ix1 j) ?_
  rw [Shape.rowMajor_val_one, Shape.rowMajor_val_two]
  show j.val = 0 * n + j.val
  omega

/-- A scalar viewed as a one-by-one matrix reads the scalar. -/
theorem cell_apply (x : (⟨0, ![]⟩ : Shape).Idx → EReal) (h : (⟨0, ![]⟩ : Shape).ShapeCasts ⟨2, ![1, 1]⟩) :
    shapeCast (⟨2, ![1, 1]⟩ : Shape) x h (ix2 (0 : Fin 1) (0 : Fin 1)) = x ix0 :=
  shapeCast_apply x h (ix2 (0 : Fin 1) (0 : Fin 1)) ix0 (by
    rw [Shape.rowMajor_val_two]
    show (Shape.rowMajorPi (![] : Fin 0 → ℕ) ix0).val = 0 * 1 + 0
    rw [Shape.rowMajorPi_zero])

/-- The batch-norm scale as the host operations spell it, viewed as a row. -/
theorem scl_apply {n : ℕ} (g v : (⟨1, ![n]⟩ : Shape).Idx → EReal) (hb : S_.BroadcastsInDim ⟨1, ![n]⟩ (![] : Fin 0 → Fin 1))
    (h : (⟨1, ![n]⟩ : Shape).ShapeCasts ⟨2, ![1, n]⟩) (j : Fin n) :
    shapeCast (⟨2, ![1, n]⟩ : Shape)
      (mulf (F := Ideal) (φ := .f32) g (Host.rsqrt (F := Ideal) (addf (F := Ideal) (φ := .f32) v
        (broadcastInDim (⟨1, ![n]⟩ : Shape) (![] : Fin 0 → Fin 1) hb (constant (F := Ideal) S_ .f32 0x3727C5AC#32))))) h (ix2 (0 : Fin 1) j)
      = scl g v j := by
  refine (row_apply _ h j).trans ?_
  rw [mulf_apply]
  show g (ix1 j) * Ideal.rsqrt (v (ix1 j) + broadcastInDim _ _ hb _ (ix1 j)) = _
  rw [bcast0_apply]
  rfl

/-- The batch-norm shift as the host operations spell it, viewed as a row. -/
theorem shf_apply {n : ℕ} (be mu g v : (⟨1, ![n]⟩ : Shape).Idx → EReal) (hb : S_.BroadcastsInDim ⟨1, ![n]⟩ (![] : Fin 0 → Fin 1))
    (h : (⟨1, ![n]⟩ : Shape).ShapeCasts ⟨2, ![1, n]⟩) (j : Fin n) :
    shapeCast (⟨2, ![1, n]⟩ : Shape)
      (subf (F := Ideal) (φ := .f32) be (mulf (F := Ideal) (φ := .f32) mu (mulf (F := Ideal) (φ := .f32) g (Host.rsqrt (F := Ideal) (addf (F := Ideal) (φ := .f32) v
        (broadcastInDim (⟨1, ![n]⟩ : Shape) (![] : Fin 0 → Fin 1) hb (constant (F := Ideal) S_ .f32 0x3727C5AC#32))))))) h (ix2 (0 : Fin 1) j)
      = shf be mu g v j := by
  refine (row_apply _ h j).trans ?_
  show be (ix1 j) - mu (ix1 j) * (g (ix1 j) * Ideal.rsqrt (v (ix1 j) + broadcastInDim _ _ hb _ (ix1 j))) = _
  rw [bcast0_apply]
  rfl

/-- A binarized weight matrix, transposed (and narrowed, which is the identity on exact values): entry `(i, j)` is the
    sign test of the weight's entry `(j, i)`. -/
theorem wgt_apply {n k : ℕ} (w : (⟨2, ![n, k]⟩ : Shape).Idx → EReal) (hb : S_.BroadcastsInDim ⟨2, ![n, k]⟩ (![] : Fin 0 → Fin 2))
    (ht : (⟨2, ![n, k]⟩ : Shape).Transposes [1, 0] ⟨2, ![k, n]⟩) (hlt : FTy.bits .bf16 < FTy.bits .f32) (i : Fin k) (j : Fin n) :
    (truncf (F := Ideal) .bf16 (transpose (⟨2, ![k, n]⟩ : Shape) [1, 0]
      (id (select (cmpf (F := Ideal) (φ := .f32) .oge w (broadcastInDim (⟨2, ![n, k]⟩ : Shape) (![] : Fin 0 → Fin 2) hb (constant (F := Ideal) S_ .f32 0x00000000#32)))
        (broadcastInDim (⟨2, ![n, k]⟩ : Shape) (![] : Fin 0 → Fin 2) hb (constant (F := Ideal) S_ .f32 0x3F800000#32))
        (broadcastInDim (⟨2, ![n, k]⟩ : Shape) (![] : Fin 0 → Fin 2) hb (constant (F := Ideal) S_ .f32 0xBF800000#32)))) ht) hlt) (ix2 i j)
      = bz w j i := by
  rw [truncf_apply]
  refine (transpose_apply [1, 0] _ ht (ix2 i j) (ix2 j i) ?_).trans ?_
  · intro b
    match b with
    | ⟨0, _⟩ => rfl
    | ⟨1, _⟩ => rfl
  · exact sgn_apply hb w (ix2 j i)

/-- The flattened image batch: row `r`, column `i` is pixel `(i / 28, i % 28)` of image `r`. -/
theorem img_apply (x : A4) (h : (⟨4, ![16384, 1, 28, 28]⟩ : Shape).ShapeCasts ⟨2, ![16384, 784]⟩) (r : Fin 16384) (i : Fin 784) :
    shapeCast (⟨2, ![16384, 784]⟩ : Shape) x h (ix2 r i) = xrow x r i := by
  unfold xrow
  refine shapeCast_apply x h (ix2 r i) _ ?_
  rw [Shape.rowMajor_val_four, Shape.rowMajor_val_two]
  show ((r.val * 1 + 0) * 28 + i.val / 28) * 28 + i.val % 28 = r.val * 784 + i.val
  omega

/-! ## The region's input arrays

Each array the region reads is, when the region starts, the composed term of the host operations that produced it over
the launch arguments; read at an index it is the specification's entry. -/

/-- The image batch, flattened to one row per image. -/
theorem V_v0 (r : Fin 16384) (i : Fin 784) :
    (V m c main_v0 : S16384x784.Idx → EReal) (ix2 r i) = xrow (m ((c : Thread nD τ).loc main_arg0)) r i := by
  have e : (V m c main_v0 : S16384x784.Idx → EReal)
      = shapeCast S16384x784 (m ((c : Thread nD τ).loc main_arg0)) shapeCasts_S16384x1x28x28_S16384x784 := by
    dsimp only [Gen.V]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results_simp
    rfl
  exact (congrFun e _).trans (img_apply _ _ r i)

/-- The first layer's weights, binarized and transposed. -/
theorem V_v6 (i : Fin 784) (j : Fin 2048) :
    (V m c main_v6 : S784x2048.Idx → EReal) (ix2 i j) = bz (m ((c : Thread nD τ).loc main_arg1)) j i := by
  have e : (V m c main_v6 : S784x2048.Idx → EReal)
      = truncf (F := Ideal) .bf16 (transpose S784x2048 [1, 0] (id (select (cmpf (F := Ideal) (φ := .f32) .oge (m ((c : Thread nD τ).loc main_arg1)) (broadcastInDim S2048x784 ![] bcast_S_S2048x784 (constant (F := Ideal) S_ .f32 0x00000000#32))) (broadcastInDim S2048x784 ![] bcast_S_S2048x784 (constant (F := Ideal) S_ .f32 0x3F800000#32)) (broadcastInDim S2048x784 ![] bcast_S_S2048x784 (constant (F := Ideal) S_ .f32 0xBF800000#32)))) transposes_S2048x784_S784x2048_1_0) bitsLt_bf16_f32 := by
    dsimp only [Gen.V]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results_simp
    rfl
  exact (congrFun e _).trans (wgt_apply _ _ _ _ i j)

/-- The first layer's bias, as a row. -/
theorem V_v31 (j : Fin 2048) :
    (V m c main_v31 : S1x2048.Idx → EReal) (ix2 (0 : Fin 1) j) = (m ((c : Thread nD τ).loc main_arg2)) (ix1 j) := by
  have e : (V m c main_v31 : S1x2048.Idx → EReal)
      = shapeCast S1x2048 (m ((c : Thread nD τ).loc main_arg2)) shapeCasts_S2048_S1x2048 := by
    dsimp only [Gen.V]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results_simp
    rfl
  exact (congrFun e _).trans (row_apply _ _ j)

/-- The first layer's batch-norm scale, as a row. -/
theorem V_v32 (j : Fin 2048) :
    (V m c main_v32 : S1x2048.Idx → EReal) (ix2 (0 : Fin 1) j) = scl (m ((c : Thread nD τ).loc main_arg3)) (m ((c : Thread nD τ).loc main_arg6)) j := by
  have e : (V m c main_v32 : S1x2048.Idx → EReal)
      = shapeCast S1x2048 (mulf (F := Ideal) (φ := .f32) (m ((c : Thread nD τ).loc main_arg3)) (Host.rsqrt (F := Ideal) (addf (F := Ideal) (φ := .f32) (m ((c : Thread nD τ).loc main_arg6)) (broadcastInDim S2048 ![] bcast_S_S2048 (constant (F := Ideal) S_ .f32 0x3727C5AC#32))))) shapeCasts_S2048_S1x2048 := by
    dsimp only [Gen.V]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results_simp
    rfl
  exact (congrFun e _).trans (scl_apply _ _ _ _ j)

/-- The first layer's batch-norm shift, as a row. -/
theorem V_v33 (j : Fin 2048) :
    (V m c main_v33 : S1x2048.Idx → EReal) (ix2 (0 : Fin 1) j)
      = shf (m ((c : Thread nD τ).loc main_arg4)) (m ((c : Thread nD τ).loc main_arg5)) (m ((c : Thread nD τ).loc main_arg3)) (m ((c : Thread nD τ).loc main_arg6)) j := by
  have e : (V m c main_v33 : S1x2048.Idx → EReal)
      = shapeCast S1x2048 (subf (F := Ideal) (φ := .f32) (m ((c : Thread nD τ).loc main_arg4)) (mulf (F := Ideal) (φ := .f32) (m ((c : Thread nD τ).loc main_arg5)) (mulf (F := Ideal) (φ := .f32) (m ((c : Thread nD τ).loc main_arg3)) (Host.rsqrt (F := Ideal) (addf (F := Ideal) (φ := .f32) (m ((c : Thread nD τ).loc main_arg6)) (broadcastInDim S2048 ![] bcast_S_S2048 (constant (F := Ideal) S_ .f32 0x3727C5AC#32))))))) shapeCasts_S2048_S1x2048 := by
    dsimp only [Gen.V]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results_simp
    rfl
  exact (congrFun e _).trans (shf_apply _ _ _ _ _ _ j)

/-- The second layer's weights, binarized and transposed. -/
theorem V_v12 (j k : Fin 2048) :
    (V m c main_v12 : S2048x2048.Idx → EReal) (ix2 j k) = bz (m ((c : Thread nD τ).loc main_arg7)) k j := by
  have e : (V m c main_v12 : S2048x2048.Idx → EReal)
      = truncf (F := Ideal) .bf16 (transpose S2048x2048 [1, 0] (id (select (cmpf (F := Ideal) (φ := .f32) .oge (m ((c : Thread nD τ).loc main_arg7)) (broadcastInDim S2048x2048 ![] bcast_S_S2048x2048 (constant (F := Ideal) S_ .f32 0x00000000#32))) (broadcastInDim S2048x2048 ![] bcast_S_S2048x2048 (constant (F := Ideal) S_ .f32 0x3F800000#32)) (broadcastInDim S2048x2048 ![] bcast_S_S2048x2048 (constant (F := Ideal) S_ .f32 0xBF800000#32)))) transposes_S2048x2048_S2048x2048_1_0) bitsLt_bf16_f32 := by
    dsimp only [Gen.V]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results_simp
    rfl
  exact (congrFun e _).trans (wgt_apply _ _ _ _ j k)

/-- The second layer's bias, as a row. -/
theorem V_v34 (k : Fin 2048) :
    (V m c main_v34 : S1x2048.Idx → EReal) (ix2 (0 : Fin 1) k) = (m ((c : Thread nD τ).loc main_arg8)) (ix1 k) := by
  have e : (V m c main_v34 : S1x2048.Idx → EReal)
      = shapeCast S1x2048 (m ((c : Thread nD τ).loc main_arg8)) shapeCasts_S2048_S1x2048 := by
    dsimp only [Gen.V]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results_simp
    rfl
  exact (congrFun e _).trans (row_apply _ _ k)

/-- The second layer's batch-norm scale, as a row. -/
theorem V_v35 (k : Fin 2048) :
    (V m c main_v35 : S1x2048.Idx → EReal) (ix2 (0 : Fin 1) k) = scl (m ((c : Thread nD τ).loc main_arg9)) (m ((c : Thread nD τ).loc main_arg12)) k := by
  have e : (V m c main_v35 : S1x2048.Idx → EReal)
      = shapeCast S1x2048 (mulf (F := Ideal) (φ := .f32) (m ((c : Thread nD τ).loc main_arg9)) (Host.rsqrt (F := Ideal) (addf (F := Ideal) (φ := .f32) (m ((c : Thread nD τ).loc main_arg12)) (broadcastInDim S2048 ![] bcast_S_S2048 (constant (F := Ideal) S_ .f32 0x3727C5AC#32))))) shapeCasts_S2048_S1x2048 := by
    dsimp only [Gen.V]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results_simp
    rfl
  exact (congrFun e _).trans (scl_apply _ _ _ _ k)

/-- The second layer's batch-norm shift, as a row. -/
theorem V_v36 (k : Fin 2048) :
    (V m c main_v36 : S1x2048.Idx → EReal) (ix2 (0 : Fin 1) k)
      = shf (m ((c : Thread nD τ).loc main_arg10)) (m ((c : Thread nD τ).loc main_arg11)) (m ((c : Thread nD τ).loc main_arg9)) (m ((c : Thread nD τ).loc main_arg12)) k := by
  have e : (V m c main_v36 : S1x2048.Idx → EReal)
      = shapeCast S1x2048 (subf (F := Ideal) (φ := .f32) (m ((c : Thread nD τ).loc main_arg10)) (mulf (F := Ideal) (φ := .f32) (m ((c : Thread nD τ).loc main_arg11)) (mulf (F := Ideal) (φ := .f32) (m ((c : Thread nD τ).loc main_arg9)) (Host.rsqrt (F := Ideal) (addf (F := Ideal) (φ := .f32) (m ((c : Thread nD τ).loc main_arg12)) (broadcastInDim S2048 ![] bcast_S_S2048 (constant (F := Ideal) S_ .f32 0x3727C5AC#32))))))) shapeCasts_S2048_S1x2048 := by
    dsimp only [Gen.V]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results_simp
    rfl
  exact (congrFun e _).trans (shf_apply _ _ _ _ _ _ k)

/-- The output layer's weights, binarized and transposed. -/
theorem V_v18 (k : Fin 2048) (q : Fin 10) :
    (V m c main_v18 : S2048x10.Idx → EReal) (ix2 k q) = bz (m ((c : Thread nD τ).loc main_arg13)) q k := by
  have e : (V m c main_v18 : S2048x10.Idx → EReal)
      = truncf (F := Ideal) .bf16 (transpose S2048x10 [1, 0] (id (select (cmpf (F := Ideal) (φ := .f32) .oge (m ((c : Thread nD τ).loc main_arg13)) (broadcastInDim S10x2048 ![] bcast_S_S10x2048 (constant (F := Ideal) S_ .f32 0x00000000#32))) (broadcastInDim S10x2048 ![] bcast_S_S10x2048 (constant (F := Ideal) S_ .f32 0x3F800000#32)) (broadcastInDim S10x2048 ![] bcast_S_S10x2048 (constant (F := Ideal) S_ .f32 0xBF800000#32)))) transposes_S10x2048_S2048x10_1_0) bitsLt_bf16_f32 := by
    dsimp only [Gen.V]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results_simp
    rfl
  exact (congrFun e _).trans (wgt_apply _ _ _ _ k q)

/-- The output layer's bias, as a row. -/
theorem V_v37 (q : Fin 10) :
    (V m c main_v37 : S1x10.Idx → EReal) (ix2 (0 : Fin 1) q) = (m ((c : Thread nD τ).loc main_arg14)) (ix1 q) := by
  have e : (V m c main_v37 : S1x10.Idx → EReal)
      = shapeCast S1x10 (m ((c : Thread nD τ).loc main_arg14)) shapeCasts_S10_S1x10 := by
    dsimp only [Gen.V]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results_simp
    rfl
  exact (congrFun e _).trans (row_apply _ _ q)

/-- The learned output scale, as a one-by-one matrix. -/
theorem V_v38 :
    (V m c main_v38 : S1x1.Idx → EReal) (ix2 (0 : Fin 1) (0 : Fin 1)) = (m ((c : Thread nD τ).loc main_arg15)) ix0 := by
  have e : (V m c main_v38 : S1x1.Idx → EReal)
      = shapeCast S1x1 (m ((c : Thread nD τ).loc main_arg15)) shapeCasts_S_S1x1 := by
    dsimp only [Gen.V]
    simp only [Gen.hostOps0, Gen.hostOps0_1, Gen.hostOps0_2, Gen.hostOps0_3, Gen.hostOps0_4, Gen.hostOps0_5, Gen.hostOps0_6, List.flatten_cons, List.flatten_nil, List.append_nil, List.cons_append, List.nil_append]
    after_results_simp
    rfl
  exact (congrFun e _).trans (cell_apply _ _)

end Cert.KernelIdeal.HostVal

end
-- ==== Proof.BlockRead.lean ====
/-
  Where the blocks of the kernel's one region sit in their arrays.

  The region runs over a grid of 16 points. Each of its thirteen windows cuts, at a point t, a block out of an
  array: the block's entry with in-block coordinates (p, i) sits in the array at coordinates
  (index₀ t * size₀ + p, index₁ t * size₁ + i), where index t is the window's index map at t and size is the
  block's shape. Two windows move with the point: the image rows (blocks of 1024 rows of a [16384, 784] array)
  and the output (blocks of 1024 rows of a [16384, 10] array) have index map t ↦ (t, 0), so entry (p, i) of
  block t is entry (1024 t + p, i) of the array. The eleven other windows have the constant index map (0, 0)
  and a block that is the whole array, so an entry sits where it is. The index maps are decided once over the
  16 points; everything else is arithmetic.

  Last, the output's blocks cover its array: row r lies in the block of point r / 1024, which is written back.
-/
import proofs.«118059_j54013508715380_2_alg».proof.Proof.Gen.KernelIdeal.Frame
import Idealize.ShloMosaic.Lib.Pipeline.Value
import Idealize.ShloMosaic.Lib.ValueIdx

noncomputable section

namespace Cert.KernelIdeal.BlockRead

open Idealize.ShloMosaic Idealize.ShloMosaic.ValueIdx Idealize.ShloMosaic.TcCoe Idealize.SL.Sem Cert.KernelIdeal Cert.KernelIdeal.Gen

/-! ## The index maps, decided over the grid -/

/-- Window 0 (the image rows) has index map t ↦ (t, 0). -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Window 12 (the output) has index map t ↦ (t, 0). -/
theorem idx12 : ∀ t : Fin cfg0.N, win0_12.index t (0 : Fin 2) = t.val ∧ win0_12.index t (1 : Fin 2) = 0 :=
  (by decide +kernel : ∀ t : Fin grid0.N, win0_12.index t (0 : Fin 2) = t.val ∧ win0_12.index t (1 : Fin 2) = 0)

/-- Window 1's index map is constantly (0, 0). -/
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

/-- Window 2's index map is constantly (0, 0). -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- Window 3's index map is constantly (0, 0). -/
theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

/-- Window 4's index map is constantly (0, 0). -/
theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

/-- Window 5's index map is constantly (0, 0). -/
theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

/-- Window 6's index map is constantly (0, 0). -/
theorem idx6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)

/-- Window 7's index map is constantly (0, 0). -/
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)

/-- Window 8's index map is constantly (0, 0). -/
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)

/-- Window 9's index map is constantly (0, 0). -/
theorem idx9 : ∀ t : Fin cfg0.N, win0_9.index t (0 : Fin 2) = 0 ∧ win0_9.index t (1 : Fin 2) = 0 :=
  (by decide +kernel : ∀ t : Fin grid0.N, win0_9.index t (0 : Fin 2) = 0 ∧ win0_9.index t (1 : Fin 2) = 0)

/-- Window 10's index map is constantly (0, 0). -/
theorem idx10 : ∀ t : Fin cfg0.N, win0_10.index t (0 : Fin 2) = 0 ∧ win0_10.index t (1 : Fin 2) = 0 :=
  (by decide +kernel : ∀ t : Fin grid0.N, win0_10.index t (0 : Fin 2) = 0 ∧ win0_10.index t (1 : Fin 2) = 0)

/-- Window 11's index map is constantly (0, 0). -/
theorem idx11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

/-- All thirteen index maps at once: windows 0 and 12 follow the point, windows 1 to 11 stay at (0, 0). -/
theorem idx_facts : ∀ t : Fin cfg0.N, win0_0.index t (0 : Fin 2) = t.val ∧ win0_0.index t (1 : Fin 2) = 0
    ∧ win0_12.index t (0 : Fin 2) = t.val ∧ win0_12.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  fun t => ⟨(idx0 t).1, (idx0 t).2, (idx12 t).1, (idx12 t).2,
    (idx1 t).1, (idx1 t).2,
    (idx2 t).1, (idx2 t).2,
    (idx3 t).1, (idx3 t).2,
    (idx4 t).1, (idx4 t).2,
    (idx5 t).1, (idx5 t).2,
    (idx6 t).1, (idx6 t).2,
    (idx7 t).1, (idx7 t).2,
    (idx8 t).1, (idx8 t).2,
    (idx9 t).1, (idx9 t).2,
    (idx10 t).1, (idx10 t).2,
    (idx11 t).1, (idx11 t).2⟩

/-! ## Where a block's entry sits in its array -/

/-- Row p of the block of point t is row 1024 t + p of the array: there are 16 points and 16 * 1024 = 16384 rows. -/
def rowOf (t : Fin cfg0.N) (p : Fin 1024) : Fin 16384 :=
  ⟨t.val * 1024 + p.val, by
    have ht : t.val < grid0.N := t.isLt
    have hp := p.isLt
    have h16 : grid0.N = 16 := N_0
    show t.val * 1024 + p.val < 16384
    omega⟩

/-- The row number, spelled out. -/
theorem rowOf_val (t : Fin cfg0.N) (p : Fin 1024) : (rowOf t p).val = t.val * 1024 + p.val := rfl

/-- Entry (p, i) of the block of image rows at point t is entry (1024 t + p, i) of the array of image rows. -/
theorem emb0 (t : Fin cfg0.N) (p : Fin 1024) (i : Fin 784) :
    ((cfg0.win 0).blk t).view.emb (ix2 p i) = (ix2 (rowOf t p) i : S16384x784.Idx) := by
  obtain ⟨e0, e1⟩ := idx0 t
  funext a; apply Fin.ext
  match a with
  | ⟨0, _⟩ => show win0_0.index t (0 : Fin 2) * 1024 + 1 * p.val = t.val * 1024 + p.val; omega
  | ⟨1, _⟩ => show win0_0.index t (1 : Fin 2) * 784 + 1 * i.val = i.val; omega

/-- Entry (p, q) of the output block at point t is entry (1024 t + p, q) of the output array. -/
theorem emb12 (t : Fin cfg0.N) (p : Fin 1024) (q : Fin 10) :
    ((cfg0.win 12).blk t).view.emb (ix2 p q) = (ix2 (rowOf t p) q : S16384x10.Idx) := by
  obtain ⟨e0, e1⟩ := idx12 t
  funext a; apply Fin.ext
  match a with
  | ⟨0, _⟩ => show win0_12.index t (0 : Fin 2) * 1024 + 1 * p.val = t.val * 1024 + p.val; omega
  | ⟨1, _⟩ => show win0_12.index t (1 : Fin 2) * 10 + 1 * q.val = q.val; omega

/-- Window 1's block is the whole array: an entry of the block sits at the same place in the array. -/
theorem emb1 (t : Fin cfg0.N) (i : Fin 784) (j : Fin 2048) :
    ((cfg0.win 1).blk t).view.emb (ix2 i j) = (ix2 i j : S784x2048.Idx) := by
  obtain ⟨e0, e1⟩ := idx1 t
  funext a; apply Fin.ext
  match a with
  | ⟨0, _⟩ => show win0_1.index t (0 : Fin 2) * 784 + 1 * i.val = i.val; omega
  | ⟨1, _⟩ => show win0_1.index t (1 : Fin 2) * 2048 + 1 * j.val = j.val; omega

/-- Window 2's block is the whole array: an entry of the block sits at the same place in the array. -/
theorem emb2 (t : Fin cfg0.N) (j : Fin 2048) :
    ((cfg0.win 2).blk t).view.emb (ix2 (0 : Fin 1) j) = (ix2 (0 : Fin 1) j : S1x2048.Idx) := by
  obtain ⟨e0, e1⟩ := idx2 t
  funext a; apply Fin.ext
  match a with
  | ⟨0, _⟩ => show win0_2.index t (0 : Fin 2) * 1 + 1 * (0 : Fin 1).val = (0 : Fin 1).val; omega
  | ⟨1, _⟩ => show win0_2.index t (1 : Fin 2) * 2048 + 1 * j.val = j.val; omega

/-- Window 3's block is the whole array: an entry of the block sits at the same place in the array. -/
theorem emb3 (t : Fin cfg0.N) (j : Fin 2048) :
    ((cfg0.win 3).blk t).view.emb (ix2 (0 : Fin 1) j) = (ix2 (0 : Fin 1) j : S1x2048.Idx) := by
  obtain ⟨e0, e1⟩ := idx3 t
  funext a; apply Fin.ext
  match a with
  | ⟨0, _⟩ => show win0_3.index t (0 : Fin 2) * 1 + 1 * (0 : Fin 1).val = (0 : Fin 1).val; omega
  | ⟨1, _⟩ => show win0_3.index t (1 : Fin 2) * 2048 + 1 * j.val = j.val; omega

/-- Window 4's block is the whole array: an entry of the block sits at the same place in the array. -/
theorem emb4 (t : Fin cfg0.N) (j : Fin 2048) :
    ((cfg0.win 4).blk t).view.emb (ix2 (0 : Fin 1) j) = (ix2 (0 : Fin 1) j : S1x2048.Idx) := by
  obtain ⟨e0, e1⟩ := idx4 t
  funext a; apply Fin.ext
  match a with
  | ⟨0, _⟩ => show win0_4.index t (0 : Fin 2) * 1 + 1 * (0 : Fin 1).val = (0 : Fin 1).val; omega
  | ⟨1, _⟩ => show win0_4.index t (1 : Fin 2) * 2048 + 1 * j.val = j.val; omega

/-- Window 5's block is the whole array: an entry of the block sits at the same place in the array. -/
theorem emb5 (t : Fin cfg0.N) (j k : Fin 2048) :
    ((cfg0.win 5).blk t).view.emb (ix2 j k) = (ix2 j k : S2048x2048.Idx) := by
  obtain ⟨e0, e1⟩ := idx5 t
  funext a; apply Fin.ext
  match a with
  | ⟨0, _⟩ => show win0_5.index t (0 : Fin 2) * 2048 + 1 * j.val = j.val; omega
  | ⟨1, _⟩ => show win0_5.index t (1 : Fin 2) * 2048 + 1 * k.val = k.val; omega

/-- Window 6's block is the whole array: an entry of the block sits at the same place in the array. -/
theorem emb6 (t : Fin cfg0.N) (j : Fin 2048) :
    ((cfg0.win 6).blk t).view.emb (ix2 (0 : Fin 1) j) = (ix2 (0 : Fin 1) j : S1x2048.Idx) := by
  obtain ⟨e0, e1⟩ := idx6 t
  funext a; apply Fin.ext
  match a with
  | ⟨0, _⟩ => show win0_6.index t (0 : Fin 2) * 1 + 1 * (0 : Fin 1).val = (0 : Fin 1).val; omega
  | ⟨1, _⟩ => show win0_6.index t (1 : Fin 2) * 2048 + 1 * j.val = j.val; omega

/-- Window 7's block is the whole array: an entry of the block sits at the same place in the array. -/
theorem emb7 (t : Fin cfg0.N) (j : Fin 2048) :
    ((cfg0.win 7).blk t).view.emb (ix2 (0 : Fin 1) j) = (ix2 (0 : Fin 1) j : S1x2048.Idx) := by
  obtain ⟨e0, e1⟩ := idx7 t
  funext a; apply Fin.ext
  match a with
  | ⟨0, _⟩ => show win0_7.index t (0 : Fin 2) * 1 + 1 * (0 : Fin 1).val = (0 : Fin 1).val; omega
  | ⟨1, _⟩ => show win0_7.index t (1 : Fin 2) * 2048 + 1 * j.val = j.val; omega

/-- Window 8's block is the whole array: an entry of the block sits at the same place in the array. -/
theorem emb8 (t : Fin cfg0.N) (j : Fin 2048) :
    ((cfg0.win 8).blk t).view.emb (ix2 (0 : Fin 1) j) = (ix2 (0 : Fin 1) j : S1x2048.Idx) := by
  obtain ⟨e0, e1⟩ := idx8 t
  funext a; apply Fin.ext
  match a with
  | ⟨0, _⟩ => show win0_8.index t (0 : Fin 2) * 1 + 1 * (0 : Fin 1).val = (0 : Fin 1).val; omega
  | ⟨1, _⟩ => show win0_8.index t (1 : Fin 2) * 2048 + 1 * j.val = j.val; omega

/-- Window 9's block is the whole array: an entry of the block sits at the same place in the array. -/
theorem emb9 (t : Fin cfg0.N) (k : Fin 2048) (q : Fin 10) :
    ((cfg0.win 9).blk t).view.emb (ix2 k q) = (ix2 k q : S2048x10.Idx) := by
  obtain ⟨e0, e1⟩ := idx9 t
  funext a; apply Fin.ext
  match a with
  | ⟨0, _⟩ => show win0_9.index t (0 : Fin 2) * 2048 + 1 * k.val = k.val; omega
  | ⟨1, _⟩ => show win0_9.index t (1 : Fin 2) * 10 + 1 * q.val = q.val; omega

/-- Window 10's block is the whole array: an entry of the block sits at the same place in the array. -/
theorem emb10 (t : Fin cfg0.N) (q : Fin 10) :
    ((cfg0.win 10).blk t).view.emb (ix2 (0 : Fin 1) q) = (ix2 (0 : Fin 1) q : S1x10.Idx) := by
  obtain ⟨e0, e1⟩ := idx10 t
  funext a; apply Fin.ext
  match a with
  | ⟨0, _⟩ => show win0_10.index t (0 : Fin 2) * 1 + 1 * (0 : Fin 1).val = (0 : Fin 1).val; omega
  | ⟨1, _⟩ => show win0_10.index t (1 : Fin 2) * 10 + 1 * q.val = q.val; omega

/-- Window 11's block is the whole array: an entry of the block sits at the same place in the array. -/
theorem emb11 (t : Fin cfg0.N) :
    ((cfg0.win 11).blk t).view.emb (ix2 (0 : Fin 1) (0 : Fin 1)) = (ix2 (0 : Fin 1) (0 : Fin 1) : S1x1.Idx) := by
  obtain ⟨e0, e1⟩ := idx11 t
  funext a; apply Fin.ext
  match a with
  | ⟨0, _⟩ => show win0_11.index t (0 : Fin 2) * 1 + 1 * (0 : Fin 1).val = (0 : Fin 1).val; omega
  | ⟨1, _⟩ => show win0_11.index t (1 : Fin 2) * 1 + 1 * (0 : Fin 1).val = (0 : Fin 1).val; omega

/-! ## The output's blocks cover its array -/

/-- An index of the output array is in point t's block iff each coordinate is in the block's range on its axis. -/
theorem mem_blk12 (t : Fin cfg0.N) (i : S16384x10.Idx) :
    i ∈ ((cfg0.win 12).blk t).view.set ↔ ∀ a : Fin 2, win0_12.index t a * S1024x10.size a ≤ (i a).val
      ∧ (i a).val < win0_12.index t a * S1024x10.size a + S1024x10.size a := by
  show i ∈ ((View.whole main_v39).slice (win0_12.rect t)).set ↔ _
  rw [View.set_slice_whole, Rect.mem_set_unit]
  exact Iff.rfl

/-- Every index of the output array lies in the block of a point that writes it back: row r in that of r / 1024. -/
theorem cover12 : ∀ i : S16384x10.Idx, ∃ t : Fin cfg0.N, (cfg0.win 12).flush t = true
    ∧ i ∈ ((cfg0.win 12).blk t).view.set := by
  intro i
  have hi0 : (i 0).val < 16384 := (i 0).isLt
  have hi1 : (i 1).val < 10 := (i 1).isLt
  have hN : (i 0).val / 1024 < grid0.N := by rw [N_0]; omega
  obtain ⟨q0, q1⟩ := idx12 (⟨(i 0).val / 1024, hN⟩ : Fin cfg0.N)
  have q0' : win0_12.index (⟨(i 0).val / 1024, hN⟩ : Fin cfg0.N) (0 : Fin 2) = (i 0).val / 1024 := q0
  refine ⟨⟨(i 0).val / 1024, hN⟩, flush0_12 _, ?_⟩
  rw [mem_blk12]
  intro a
  match a with
  | ⟨0, _⟩ =>
    show win0_12.index ⟨(i 0).val / 1024, hN⟩ (0 : Fin 2) * 1024 ≤ (i 0).val
      ∧ (i 0).val < win0_12.index ⟨(i 0).val / 1024, hN⟩ (0 : Fin 2) * 1024 + 1024
    omega
  | ⟨1, _⟩ =>
    show win0_12.index ⟨(i 0).val / 1024, hN⟩ (1 : Fin 2) * 10 ≤ (i 1).val
      ∧ (i 1).val < win0_12.index ⟨(i 0).val / 1024, hN⟩ (1 : Fin 2) * 10 + 10
    omega

end Cert.KernelIdeal.BlockRead

end
-- ==== Proof.KValue.lean ====
/-
  The kernel's result array is the network, in the kernel's form, on the argument arrays.

  The region runs the body at sixteen grid points. At point t the image window holds rows t·1024 … t·1024 + 1023 of
  the flattened batch; every other input window holds its whole array at every point. Those arrays are what the host
  operations before the region made of the arguments: the flattened images; each weight matrix binarized and
  transposed; each bias as a row; each batch-norm's scale g·(v + ε)^(-1/2) and shift be − mu·scale as rows. So the block
  the body leaves at point t is, entry (p, q), output unit q of the network on image t·1024 + p: block t of one array.
  The sixteen output blocks are disjoint and tile the [16384, 10] result, so after the run the result IS that array.
-/
import proofs.«118059_j54013508715380_2_alg».proof.Proof.Gen.KernelIdeal.Value
import proofs.«118059_j54013508715380_2_alg».proof.Proof.Payload
import proofs.«118059_j54013508715380_2_alg».proof.Proof.HostVal
import proofs.«118059_j54013508715380_2_alg».proof.Proof.BlockRead
import proofs.«118059_j54013508715380_2_alg».proof.Proof.Spec
import Idealize.ShloMosaic.Lib.Pipeline.Value
import Idealize.ShloMosaic.Lib.ValueIdx

noncomputable section

namespace Cert.KernelIdeal.KValue

open Idealize.ShloMosaic Idealize.ShloMosaic.ValueIdx Idealize.ShloMosaic.TcCoe Idealize.SL.Sem Cert.KernelIdeal Cert.KernelIdeal.Gen Cert.Bnn
open Cert.KernelIdeal.HostVal Cert.KernelIdeal.BlockRead Cert.KernelIdeal.Payload
open Idealize.ShloMosaic.Pipeline (Dat)

variable (m : (ℓ : Loc nD τ sig) → Buf (Elt Ideal) ℓ) (ρ : Dev nD → PrngReg)

/-- The network, in the kernel's form, on core `c`'s sixteen argument arrays. -/
def GKm (c : Dev nD) : S16384x10.Idx → EReal :=
  GK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))

/-! ## The input blocks at a point, entry by entry -/

/-- Window 0's block at any point: row p of the image block at point t is image row t·1024 + p. -/
theorem blk0_at (c : Dev nD) (t : Fin cfg0.N) (p : Fin 1024) (i : Fin 784) :
    iblk m c 0 t (ix2 p i) = xrow (m ((c : Thread nD τ).loc main_arg0)) (rowOf t p) i := by
  show (V m c main_v0 : S16384x784.Idx → EReal) (((cfg0.win 0).blk t).view.emb (ix2 p i)) = _
  rw [emb0]
  exact V_v0 m c _ i

/-- Window 1's block at any point: the first layer's weights, binarized and transposed. -/
theorem blk1_at (c : Dev nD) (t : Fin cfg0.N) (i : Fin 784) (j : Fin 2048) :
    iblk m c 1 t (ix2 i j) = bz (m ((c : Thread nD τ).loc main_arg1)) j i := by
  show (V m c main_v6 : S784x2048.Idx → EReal) (((cfg0.win 1).blk t).view.emb (ix2 i j)) = _
  rw [emb1]
  exact V_v6 m c i j

/-- Window 2's block at any point: the first layer's bias row. -/
theorem blk2_at (c : Dev nD) (t : Fin cfg0.N) (j : Fin 2048) :
    iblk m c 2 t (ix2 (0 : Fin 1) j) = (m ((c : Thread nD τ).loc main_arg2)) (ix1 j) := by
  show (V m c main_v31 : S1x2048.Idx → EReal) (((cfg0.win 2).blk t).view.emb (ix2 (0 : Fin 1) j)) = _
  rw [emb2]
  exact V_v31 m c j

/-- Window 3's block at any point: the first layer's batch-norm scale row. -/
theorem blk3_at (c : Dev nD) (t : Fin cfg0.N) (j : Fin 2048) :
    iblk m c 3 t (ix2 (0 : Fin 1) j) = scl (m ((c : Thread nD τ).loc main_arg3)) (m ((c : Thread nD τ).loc main_arg6)) j := by
  show (V m c main_v32 : S1x2048.Idx → EReal) (((cfg0.win 3).blk t).view.emb (ix2 (0 : Fin 1) j)) = _
  rw [emb3]
  exact V_v32 m c j

/-- Window 4's block at any point: the first layer's batch-norm shift row. -/
theorem blk4_at (c : Dev nD) (t : Fin cfg0.N) (j : Fin 2048) :
    iblk m c 4 t (ix2 (0 : Fin 1) j) = shf (m ((c : Thread nD τ).loc main_arg4)) (m ((c : Thread nD τ).loc main_arg5)) (m ((c : Thread nD τ).loc main_arg3)) (m ((c : Thread nD τ).loc main_arg6)) j := by
  show (V m c main_v33 : S1x2048.Idx → EReal) (((cfg0.win 4).blk t).view.emb (ix2 (0 : Fin 1) j)) = _
  rw [emb4]
  exact V_v33 m c j

/-- Window 5's block at any point: the second layer's weights, binarized and transposed. -/
theorem blk5_at (c : Dev nD) (t : Fin cfg0.N) (j k : Fin 2048) :
    iblk m c 5 t (ix2 j k) = bz (m ((c : Thread nD τ).loc main_arg7)) k j := by
  show (V m c main_v12 : S2048x2048.Idx → EReal) (((cfg0.win 5).blk t).view.emb (ix2 j k)) = _
  rw [emb5]
  exact V_v12 m c j k

/-- Window 6's block at any point: the second layer's bias row. -/
theorem blk6_at (c : Dev nD) (t : Fin cfg0.N) (k : Fin 2048) :
    iblk m c 6 t (ix2 (0 : Fin 1) k) = (m ((c : Thread nD τ).loc main_arg8)) (ix1 k) := by
  show (V m c main_v34 : S1x2048.Idx → EReal) (((cfg0.win 6).blk t).view.emb (ix2 (0 : Fin 1) k)) = _
  rw [emb6]
  exact V_v34 m c k

/-- Window 7's block at any point: the second layer's batch-norm scale row. -/
theorem blk7_at (c : Dev nD) (t : Fin cfg0.N) (k : Fin 2048) :
    iblk m c 7 t (ix2 (0 : Fin 1) k) = scl (m ((c : Thread nD τ).loc main_arg9)) (m ((c : Thread nD τ).loc main_arg12)) k := by
  show (V m c main_v35 : S1x2048.Idx → EReal) (((cfg0.win 7).blk t).view.emb (ix2 (0 : Fin 1) k)) = _
  rw [emb7]
  exact V_v35 m c k

/-- Window 8's block at any point: the second layer's batch-norm shift row. -/
theorem blk8_at (c : Dev nD) (t : Fin cfg0.N) (k : Fin 2048) :
    iblk m c 8 t (ix2 (0 : Fin 1) k) = shf (m ((c : Thread nD τ).loc main_arg10)) (m ((c : Thread nD τ).loc main_arg11)) (m ((c : Thread nD τ).loc main_arg9)) (m ((c : Thread nD τ).loc main_arg12)) k := by
  show (V m c main_v36 : S1x2048.Idx → EReal) (((cfg0.win 8).blk t).view.emb (ix2 (0 : Fin 1) k)) = _
  rw [emb8]
  exact V_v36 m c k

/-- Window 9's block at any point: the output layer's weights, binarized and transposed. -/
theorem blk9_at (c : Dev nD) (t : Fin cfg0.N) (k : Fin 2048) (q : Fin 10) :
    iblk m c 9 t (ix2 k q) = bz (m ((c : Thread nD τ).loc main_arg13)) q k := by
  show (V m c main_v18 : S2048x10.Idx → EReal) (((cfg0.win 9).blk t).view.emb (ix2 k q)) = _
  rw [emb9]
  exact V_v18 m c k q

/-- Window 10's block at any point: the output layer's bias row. -/
theorem blk10_at (c : Dev nD) (t : Fin cfg0.N) (q : Fin 10) :
    iblk m c 10 t (ix2 (0 : Fin 1) q) = (m ((c : Thread nD τ).loc main_arg14)) (ix1 q) := by
  show (V m c main_v37 : S1x10.Idx → EReal) (((cfg0.win 10).blk t).view.emb (ix2 (0 : Fin 1) q)) = _
  rw [emb10]
  exact V_v37 m c q

/-- Window 11's block at any point: the learned scale. -/
theorem blk11_at (c : Dev nD) (t : Fin cfg0.N)  :
    iblk m c 11 t (ix2 (0 : Fin 1) (0 : Fin 1)) = (m ((c : Thread nD τ).loc main_arg15)) ix0 := by
  show (V m c main_v38 : S1x1.Idx → EReal) (((cfg0.win 11).blk t).view.emb (ix2 (0 : Fin 1) (0 : Fin 1))) = _
  rw [emb11]
  exact V_v38 m c

/-! ## What a point writes back, the cover, the array -/

/-- Entry (p, q) of the block point `t` leaves is entry (t·1024 + p, q) of the network on the arguments. -/
theorem block_at (c : Dev nD) (t : Fin cfg0.N) (p : Fin 1024) (q : Fin 10) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p q) = GKm m c (ix2 (rowOf t p) q) := by
  refine (out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p q).trans ?_
  simp only [blk0_at m c t, blk1_at m c t, blk2_at m c t, blk3_at m c t, blk4_at m c t, blk5_at m c t, blk6_at m c t,
    blk7_at m c t, blk8_at m c t, blk9_at m c t, blk10_at m c t, blk11_at m c t]
  unfold GKm
  rw [GK_apply]
  rfl

/-- What point `t` writes back is block `t` of the network's array. -/
theorem flushed_eq (c : Dev nD) (t : Fin cfg0.N) :
    (dats m 0 c).flushed 12 t = ((cfg0.win 12).blk t).view.read (Elt Ideal) (GKm m c) := by
  rw [Cert.KernelIdeal.Value.flushed12]
  funext y
  obtain ⟨p, q, rfl⟩ : ∃ (p : Fin 1024) (q : Fin 10), y = ix2 p q := ⟨y 0, y 1, eq_ix2 y⟩
  show out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (ix2 p q) = GKm m c (((cfg0.win 12).blk t).view.emb (ix2 p q))
  rw [emb12]
  exact block_at m c t p q

/-- The sixteen blocks tile the output array, so after the run it holds the network's array. -/
theorem final (c : Dev nD) : (dats m 0 c).arrAt 12 cfg0.N = GKm m c :=
  (dats m 0 c).arrAt_eq_of_cover 12 (GKm m c) (fun t _ => flushed_eq m c t) cover12

end Cert.KernelIdeal.KValue

end
-- ==== Proof.lean ====
/-
  A binarized three-layer perceptron (784 → 2048 → 2048 → 10 over 16384 images): one fused kernel against a jnp
  reference, equal at the extended reals.

  Both programs compute, for image r and output unit q,
      ( Σ_k a2(r,k) · s(w3(q,k)) + b3(q) ) · scale,
      a2(r,k) = sg( (Σ_j a1(r,j) · s(w2(k,j)) + b2(k)) · inv2(k) + shift2(k) ),
      a1(r,j) = sg( (Σ_i x(r,i) · s(w1(j,i)) + b1(j)) · inv1(j) + shift1(j) ),
  where s and sg are the sign test (1 where 0 ≤ ·, −1 elsewhere), inv = γ·(v + ε)^(-1/2) and shift = β − μ·inv.
  They differ in three ways, none of which changes the value:
    * the reference applies the hardtanh min 1 (max (−1) h) before each sign test; the hardtanh never moves a value
      across 0, so the sign test sees the same side of 0 (true of every extended real);
    * the kernel's first layer adds a second product over the residual x − x of the image block — the remainder of
      its two-pass split, which at exact arithmetic is x − x; for a FINITE image this is 0 entry by entry and the
      pass contributes Σ 0·w = 0. This is the one place the precondition (every input finite) is used;
    * the kernel binarizes and transposes the weights, and folds each batch-norm into a scale row and a shift row,
      on the host before its one region, and tiles the batch in sixteen blocks of 1024 rows; reading every array at
      an index undoes the layout, and the sixteen output blocks tile the result.
  The modules: Spec (the mathematics and the two facts above), RefRead (the reference's result is the network in
  the reference's form), Payload / HostVal / BlockRead / KValue (the kernel's result array is the network in the
  kernel's form), FiniteInput (the precondition makes every image entry a real). The word-level kernel and the
  idealized kernel run, fault-free, leaving their arguments unchanged, by their frame certificates; the one
  idealization applied (widening a narrowed value back is the identity at exact arithmetic) is the rule's statement.
-/
import proofs.«118059_j54013508715380_2_alg».proof.Defs
import proofs.«118059_j54013508715380_2_alg».proof.Proof.Gen.Kernel
import proofs.«118059_j54013508715380_2_alg».proof.Proof.Gen.Kernel.Frame
import proofs.«118059_j54013508715380_2_alg».proof.Proof.Gen.KernelIdeal
import proofs.«118059_j54013508715380_2_alg».proof.Proof.Gen.KernelIdeal.Frame
import proofs.«118059_j54013508715380_2_alg».proof.Proof.Gen.KernelIdeal.Value
import proofs.«118059_j54013508715380_2_alg».proof.Proof.Gen.ReferenceIdeal
import proofs.«118059_j54013508715380_2_alg».proof.Proof.Gen.ReferenceIdeal.Run
import proofs.«118059_j54013508715380_2_alg».proof.Proof.Gen.ReferenceIdeal.Read
import proofs.«118059_j54013508715380_2_alg».proof.Proof.Gen.Pre_finite_inputs
import proofs.«118059_j54013508715380_2_alg».proof.Proof.Spec
import proofs.«118059_j54013508715380_2_alg».proof.Proof.RefRead
import proofs.«118059_j54013508715380_2_alg».proof.Proof.FiniteInput
import proofs.«118059_j54013508715380_2_alg».proof.Proof.KValue
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one idealization: a value narrowed to bf16 and widened back is the value itself at exact arithmetic. -/
theorem preserves : Cert.preserves_Kernel_KernelIdeal := IdealRules.truncf_extf.statement _ _ _

/-- Both programs end with the network's array on the arguments: the kernel in its own form, which on finite images
    is the reference's form. -/
theorem algebraic : Cert.algebraic_KernelIdeal_ReferenceIdeal := by
  intro m ρ m' ρ' hpre hagree
  have hfin : ∀ c : Dev Cert.KernelIdeal.nD, ∀ j, @Ne EReal ((m ((c.tc : Thread Cert.KernelIdeal.nD Cert.KernelIdeal.τ).loc Cert.KernelIdeal.main_arg0)) j) ⊤ ∧ @Ne EReal ((m ((c.tc : Thread Cert.KernelIdeal.nD Cert.KernelIdeal.τ).loc Cert.KernelIdeal.main_arg0)) j) ⊥ :=
    fun c => Cert.FiniteInput.arg0_finite _ _ _ _ _ _ _ _ _ _ _ _ _ _ _ _ (hpre c)
  refine ⟨fun c => Cert.Bnn.GR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans ((Cert.KernelIdeal.KValue.final m c).trans (Cert.Bnn.GK_eq_GR _ _ _ _ _ _ _ _ _ _ _ _ _ _ _ _ (hfin c))), (h c).2⟩)
      (Cert.KernelIdeal.Value.run_blocks m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v60_eq, Cert.ReferenceIdeal.RefValue.ref_eq]
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
